-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x40 : Shape := ⟨2, ![8, 40]⟩
abbrev S8x1 : Shape := ⟨2, ![8, 1]⟩
abbrev S8x256x1024 : Shape := ⟨3, ![8, 256, 1024]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x40 : S_.BroadcastsInDim S8x40 (![] : Fin 0 → Fin S8x40.rank)
  reducesTo_S8x40_S_d0_1 : S8x40.ReducesTo [0, 1] S_
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn_part1 {F : FTy → Type} [FloatOps F] (main_v13 : IVec S_ 1) (main_v16 : IVec S8x256x1024 1) : IVec S_ 1 :=
  let main_c_5 : IVec S_ 1 := constantI S_ 1 1#1
  let main_v17 : IVec S_ 1 := (fun x v => Host.reduce IntOp.andi x v reducesTo_S8x256x1024_S_d0_1_2 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x40 .f32) (main_arg3 : IVec S8x1 32) (main_arg4 : FVec F S8x256x1024 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x40 .f32 := Host.absf main_arg2
  let main_cst_2 : FVec F S_ .f32 := constant S_ .f32 0x7F800000#32
  let main_v10 : FVec F S8x40 .f32 := broadcastInDim S8x40 ![] bcast_S_S8x40 main_cst_2
  let main_v11 : IVec S8x40 1 := cmpf .olt main_v9 main_v10
  let main_c_3 : IVec S_ 1 := constantI S_ 1 1#1
  let main_v12 : IVec S_ 1 := (fun x v => Host.reduce IntOp.andi x v reducesTo_S8x40_S_d0_1 h_S_) main_v11 main_c_3
  let main_v13 : IVec S_ 1 := andi main_v8 main_v12
  let main_v14 : FVec F S8x256x1024 .f32 := Host.absf main_arg4
  let main_cst_4 : FVec F S_ .f32 := constant S_ .f32 0x7F800000#32
  let main_v15 : FVec F S8x256x1024 .f32 := broadcastInDim S8x256x1024 ![] bcast_S_S8x256x1024 main_cst_4
  let main_v16 : IVec S8x256x1024 1 := cmpf .olt main_v14 main_v15
  fn_part1 (F := F) main_v13 main_v16
-- ==== Kernel.lean ====
abbrev S8x4096x3 : Shape := ⟨3, ![8, 4096, 3]⟩
abbrev S8x40 : Shape := ⟨2, ![8, 40]⟩
abbrev S8x1 : Shape := ⟨2, ![8, 1]⟩
abbrev S8x256x1024 : Shape := ⟨3, ![8, 256, 1024]⟩
abbrev S8x1x128 : Shape := ⟨3, ![8, 1, 128]⟩
abbrev S1x256x3 : Shape := ⟨3, ![1, 256, 3]⟩
abbrev S1x4096x3 : Shape := ⟨3, ![1, 4096, 3]⟩
abbrev S1x1x128 : Shape := ⟨3, ![1, 1, 128]⟩
abbrev S1x4096 : Shape := ⟨2, ![1, 4096]⟩
abbrev S1x256 : Shape := ⟨2, ![1, 256]⟩
abbrev S1x256x1 : Shape := ⟨3, ![1, 256, 1]⟩
abbrev S1x4096x1 : Shape := ⟨3, ![1, 4096, 1]⟩
abbrev S1x1x4096 : Shape := ⟨3, ![1, 1, 4096]⟩
abbrev S1x256x4096 : Shape := ⟨3, ![1, 256, 4096]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 80
  | .vmem => 12
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x40, .f32⟩
  | .hbm, ⟨3, _⟩ => ⟨S8x1, .i32⟩
  | .hbm, ⟨4, _⟩ => ⟨S8x256x1024, .f32⟩
  | .hbm, ⟨5, _⟩ => ⟨S8x1x128, .f32⟩
  | .hbm, ⟨6, _⟩ => ⟨S8x1x128, .f32⟩
  | .hbm, ⟨7, _⟩ => ⟨S8x1x1, .f32⟩
  | .hbm, ⟨8, _⟩ => ⟨S8, .f32⟩
  | .hbm, ⟨9, _⟩ => ⟨S8x1x1, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8x1, .f32⟩
  | .hbm, ⟨36, _⟩ => ⟨S8x40, .f32⟩
  | .hbm, ⟨37, _⟩ => ⟨S8x40, .f32⟩
  | .hbm, ⟨38, _⟩ => ⟨S8x40, .f32⟩
  | .hbm, ⟨39, _⟩ => ⟨S_, .f32⟩
  | .hbm, ⟨40, _⟩ => ⟨S8, .f32⟩
  | .hbm, ⟨41, _⟩ => ⟨S8x1, .f32⟩
  | .hbm, ⟨42, _⟩ => ⟨S8x1, .f32⟩
  | .hbm, ⟨43, _⟩ => ⟨S8x40, .f32⟩
  | .hbm, ⟨44, _⟩ => ⟨S8x40, .f32⟩
  | .hbm, ⟨45, _⟩ => ⟨S_, .i32⟩
  | .hbm, ⟨46, _⟩ => ⟨S8x1, .i32⟩
  | .hbm, ⟨47, _⟩ => ⟨S8x1, .i1⟩
  | .hbm, ⟨48, _⟩ => ⟨S_, .i32⟩
  | .hbm, ⟨49, _⟩ => ⟨S8x1, .i32⟩
  | .hbm, ⟨50, _⟩ => ⟨S8x1, .i32⟩
  | .hbm, ⟨51, _⟩ => ⟨S8x1, .i32⟩
  | .hbm, ⟨52, _⟩ => ⟨S8x1x1, .i32⟩
  | .hbm, ⟨53, _⟩ => ⟨S1, .i32⟩
  | .hbm, ⟨54, _⟩ => ⟨S_, .i32⟩
  | .hbm, ⟨55, _⟩ => ⟨S8x1x1, .i32⟩
  | .hbm, ⟨56, _⟩ => ⟨S8x1x1, .i1⟩
  | .hbm, ⟨57, _⟩ => ⟨S1x1x1, .i32⟩
  | .hbm, ⟨58, _⟩ => ⟨S8x1x1, .i32⟩
  | .hbm, ⟨59, _⟩ => ⟨S8x1x1, .i1⟩
  | .hbm, ⟨60, _⟩ => ⟨S8x1x1, .i1⟩
  | .hbm, ⟨61, _⟩ => ⟨S_, .i1⟩
  | .hbm, ⟨62, _⟩ => ⟨S8x1, .i1⟩
  | .hbm, ⟨63, _⟩ => ⟨S8x1, .f32⟩
  | .hbm, ⟨64, _⟩ => ⟨S_, .f32⟩
  | .hbm, ⟨65, _⟩ => ⟨S8x1, .f32⟩
  | .hbm, ⟨66, _⟩ => ⟨S8x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x4096, .f32⟩
  | .local _ .vmem, ⟨9, _⟩ => ⟨S1x256x1024, .f32⟩
  | .local _ .vmem, ⟨10, _⟩ => ⟨S1x256x1024, .f32⟩
  | .local _ .vmem, ⟨11, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v17 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v18 : Ref sig .tc := ⟨.hbm, 66, rfl⟩
abbrev main_cst_6 : Ref sig .tc := ⟨.hbm, 67, rfl⟩
abbrev main_v19 : Ref sig .tc := ⟨.hbm, 68, rfl⟩
abbrev main_cst_7 : Ref sig .tc := ⟨.hbm, 69, rfl⟩
abbrev main_v20 : Ref sig .tc := ⟨.hbm, 70, rfl⟩
abbrev main_v21 : Ref sig .tc := ⟨.hbm, 71, rfl⟩
abbrev main_cst_8 : Ref sig .tc := ⟨.hbm, 72, rfl⟩
abbrev main_v22 : Ref sig .tc := ⟨.hbm, 73, rfl⟩
abbrev main_cst_9 : Ref sig .tc := ⟨.hbm, 74, rfl⟩
abbrev main_v23 : Ref sig .tc := ⟨.hbm, 75, rfl⟩
abbrev main_v24 : Ref sig .tc := ⟨.hbm, 76, rfl⟩
abbrev main_cst_10 : Ref sig .tc := ⟨.hbm, 77, rfl⟩
abbrev main_v25 : Ref sig .tc := ⟨.hbm, 78, rfl⟩
abbrev main_v26 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_21 : BitVec 32 := 0#32
  let v64 : BitVec 1 := Scalar.cmpi .ne v63 c0_i32_21
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x128_S1x1x128_0_0_0 : ∀ a, (![0, 0, 0] : Fin 3 → Nat) a + S1x1x128.size a ≤ S1x1x128.size a
  h_S1x1x128 : 0 < S1x1x128.numel
  inb_S1x256x3_S1x256x3_0_0_0 : ∀ a, (![0, 0, 0] : Fin 3 → Nat) a + S1x256x3.size a ≤ S1x256x3.size a
  h_S1x256x3 : 0 < S1x256x3.numel
  inb_S1x4096x3_S1x4096x3_0_0_0 : ∀ a, (![0, 0, 0] : Fin 3 → Nat) a + S1x4096x3.size a ≤ S1x4096x3.size a
  h_S1x4096x3 : 0 < S1x4096x3.numel
  reduces_S1x256x3_S1x256 : S1x256x3.Reduces [2] S1x256
  reduces_S1x4096x3_S1x4096 : S1x4096x3.Reduces [2] S1x4096
  slices_S1x256x3_o0_0_0_S1x256x1 : S1x256x3.Slices ![0, 0, 0] S1x256x1
  shapeCasts_S1x256x1_S1x256 : S1x256x1.ShapeCasts S1x256
  slices_S1x256x3_o0_0_1_S1x256x1 : S1x256x3.Slices ![0, 0, 1] S1x256x1
  slices_S1x256x3_o0_0_2_S1x256x1 : S1x256x3.Slices ![0, 0, 2] S1x256x1
  slices_S1x4096x3_o0_0_0_S1x4096x1 : S1x4096x3.Slices ![0, 0, 0] S1x4096x1
  shapeCasts_S1x4096x1_S1x4096 : S1x4096x1.ShapeCasts S1x4096
  slices_S1x4096x3_o0_0_1_S1x4096x1 : S1x4096x3.Slices ![0, 0, 1] S1x4096x1
  slices_S1x4096x3_o0_0_2_S1x4096x1 : S1x4096x3.Slices ![0, 0, 2] S1x4096x1
  shapeCasts_S1x256_S1x256x1 : S1x256.ShapeCasts S1x256x1
  shapeCasts_S1x4096_S1x1x4096 : S1x4096.ShapeCasts S1x1x4096
  broadcasts_S1x256x1_S1x256x4096 : S1x256x1.Broadcasts S1x256x4096
  broadcasts_S1x1x4096_S1x256x4096 : S1x1x4096.Broadcasts S1x256x4096
  reduces_S1x256x4096_S1x256 : S1x256x4096.Reduces [2] S1x256
  reduces_S1x256_S1 : S1x256.Reduces [1] S1
  shapeCasts_S1_S1x1 : S1.ShapeCasts S1x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  reduces_S1x256x4096_S1x4096 : S1x256x4096.Reduces [1] S1x4096
  reduces_S1x4096_S1 : S1x4096.Reduces [1] S1
  slices_S8x1x128_S8x1x1_0_0_0 : S8x1x128.Slices ![0, 0, 0] S8x1x1
  shapeCasts_S8x1x1_S8 : S8x1x1.ShapeCasts S8
  bcast_S_S8 : S_.BroadcastsInDim S8 (![] : Fin 0 → Fin S8.rank)
  reducesTo_S8_S_d0 : S8.ReducesTo [0] S_
  h_S_ : 0 < S_.numel
  inb_S1x1_S1x1_0_0 : ∀ a, (![0, 0] : Fin 2 → Nat) a + S1x1.size a ≤ S1x1.size a
  h_S1x1 : 0 < S1x1.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  reduces_S256x1_S1 : S256x1.Reduces [0] S1
  shapeCasts_S1x1_S1x1 : S1x1.ShapeCasts S1x1
  shapeCasts_S1x1_S_ : S1x1.ShapeCasts S_
  reducesTo_S8x40_S8_d1 : S8x40.ReducesTo [1] S8
  bcast_S8_S8x1_0 : S8.BroadcastsInDim S8x1 (![0] : Fin 1 → Fin S8x1.rank)
  bcast_S8x1_S8x40_0_1 : S8x1.BroadcastsInDim S8x40 (![0, 1] : Fin 2 → Fin S8x40.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  gather_S8x40_S8x1x1_S8x1_n_1_0_0_1_2_11_wf : GatherDims.WF S8x40 S8x1x1 S8x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x4096x3.size a
  hwx0_0 : ∀ i : grid0.Coords, EltTy.bits .f32 = 32 ∨ (Rect.block (s := S8x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x256x1024.size a
  hwx1_0 : ∀ i : grid1.Coords, EltTy.bits .f32 = 32 ∨ (Rect.block (s := S8x256x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

def gather_S8x40_S8x1x1_S8x1_n_1_0_0_1_2_11 : GatherDims S8x40 S8x1x1 S8x1 where
  offsetDims := []
  collapsedSliceDims := [1]
  operandBatchingDims := [0]
  startIndicesBatchingDims := [0]
  startIndexMap := [1]
  indexVectorDim := 2
  sliceSizes := ![1, 1]
  wf := gather_S8x40_S8x1x1_S8x1_n_1_0_0_1_2_11_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_arg4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S8x40 : Shape := ⟨2, ![8, 40]⟩
abbrev S8x1 : Shape := ⟨2, ![8, 1]⟩
abbrev S8x256x1024 : Shape := ⟨3, ![8, 256, 1024]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x40, .f32⟩
  | .hbm, ⟨3, _⟩ => ⟨S8x1, .i32⟩
  | .hbm, ⟨4, _⟩ => ⟨S8x256x1024, .f32⟩
  | .hbm, ⟨5, _⟩ => ⟨S8x256x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x3, .f32⟩
  | .hbm, ⟨11, _⟩ => ⟨S_, .f32⟩
  | .hbm, ⟨12, _⟩ => ⟨S8x4096, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8x1, .f32⟩
  | .hbm, ⟨55, _⟩ => ⟨S8x40, .f32⟩
  | .hbm, ⟨56, _⟩ => ⟨S8x40, .f32⟩
  | .hbm, ⟨57, _⟩ => ⟨S8x40, .f32⟩
  | .hbm, ⟨58, _⟩ => ⟨S_, .f32⟩
  | .hbm, ⟨59, _⟩ => ⟨S8, .f32⟩
  | .hbm, ⟨60, _⟩ => ⟨S8x1, .f32⟩
  | .hbm, ⟨61, _⟩ => ⟨S8x1, .f32⟩
  | .hbm, ⟨62, _⟩ => ⟨S8x40, .f32⟩
  | .hbm, ⟨63, _⟩ => ⟨S8x40, .f32⟩
  | .hbm, ⟨64, _⟩ => ⟨S_, .i32⟩
  | .hbm, ⟨65, _⟩ => ⟨S8x1, .i32⟩
  | .hbm, ⟨66, _⟩ => ⟨S8x1, .i1⟩
  | .hbm, ⟨67, _⟩ => ⟨S_, .i32⟩
  | .hbm, ⟨68, _⟩ => ⟨S8x1, .i32⟩
  | .hbm, ⟨69, _⟩ => ⟨S8x1, .i32⟩
  | .hbm, ⟨70, _⟩ => ⟨S8x1, .i32⟩
  | .hbm, ⟨71, _⟩ => ⟨S8x1x1, .i32⟩
  | .hbm, ⟨72, _⟩ => ⟨S1, .i32⟩
  | .hbm, ⟨73, _⟩ => ⟨S_, .i32⟩
  | .hbm, ⟨74, _⟩ => ⟨S8x1x1, .i32⟩
  | .hbm, ⟨75, _⟩ => ⟨S8x1x1, .i1⟩
  | .hbm, ⟨76, _⟩ => ⟨S1x1x1, .i32⟩
  | .hbm, ⟨77, _⟩ => ⟨S8x1x1, .i32⟩
  | .hbm, ⟨78, _⟩ => ⟨S8x1x1, .i1⟩
  | .hbm, ⟨79, _⟩ => ⟨S8x1x1, .i1⟩
  | .hbm, ⟨80, _⟩ => ⟨S_, .i1⟩
  | .hbm, ⟨81, _⟩ => ⟨S8x1, .i1⟩
  | .hbm, ⟨82, _⟩ => ⟨S8x1, .f32⟩
  | .hbm, ⟨83, _⟩ => ⟨S_, .f32⟩
  | .hbm, ⟨84, _⟩ => ⟨S8x1, .f32⟩
  | .hbm, ⟨85, _⟩ => ⟨S8x1, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_v23 : Ref sig .tc := ⟨.hbm, 39, rfl⟩
abbrev main_cst_10 : Ref sig .tc := ⟨.hbm, 40, rfl⟩
abbrev main_v24 : Ref sig .tc := ⟨.hbm, 41, rfl⟩
abbrev main_cst_11 : Ref sig .tc := ⟨.hbm, 42, rfl⟩
abbrev main_v25 : Ref sig .tc := ⟨.hbm, 43, rfl⟩
abbrev main_cst_12 : Ref sig .tc := ⟨.hbm, 44, rfl⟩
abbrev main_v26 : Ref sig .tc := ⟨.hbm, 45, rfl⟩
abbrev main_cst_13 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_call0_cst_0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_cst_1 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_v29 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v30 : Ref sig .tc := ⟨.hbm, 85, rfl⟩
abbrev main_cst_14 : Ref sig .tc := ⟨.hbm, 86, rfl⟩
abbrev main_v31 : Ref sig .tc := ⟨.hbm, 87, rfl⟩
abbrev main_cst_15 : Ref sig .tc := ⟨.hbm, 88, rfl⟩
abbrev main_v32 : Ref sig .tc := ⟨.hbm, 89, rfl⟩
abbrev main_v33 : Ref sig .tc := ⟨.hbm, 90, rfl⟩
abbrev main_cst_16 : Ref sig .tc := ⟨.hbm, 91, rfl⟩
abbrev main_v34 : Ref sig .tc := ⟨.hbm, 92, rfl⟩
abbrev main_cst_17 : Ref sig .tc := ⟨.hbm, 93, rfl⟩
abbrev main_v35 : Ref sig .tc := ⟨.hbm, 94, rfl⟩
abbrev main_v36 : Ref sig .tc := ⟨.hbm, 95, rfl⟩
abbrev main_cst_18 : Ref sig .tc := ⟨.hbm, 96, rfl⟩
abbrev main_v37 : Ref sig .tc := ⟨.hbm, 97, rfl⟩
abbrev main_v38 : Ref sig .tc := ⟨.hbm, 98, rfl⟩

abbrev nD : Nat := 1
abbrev τ : Topo := Topo.v7x

variable {F : FTy → Type} [FloatOps F]

class Facts₀ : Prop where
  reducesTo_S8x256x1024_S_d0_1_2 : S8x256x1024.ReducesTo [0, 1, 2] S_
  h_S_ : 0 < S_.numel
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  reducesTo_S8x40_S8_d1 : S8x40.ReducesTo [1] S8
  bcast_S8_S8x1_0 : S8.BroadcastsInDim S8x1 (![0] : Fin 1 → Fin S8x1.rank)
  bcast_S8x1_S8x40_0_1 : S8x1.BroadcastsInDim S8x40 (![0, 1] : Fin 2 → Fin S8x40.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  dot_S8x4096x3_S8x4096x3_S8x4096x4096_2_2_1_1_0_0_wf : DotDims.WF S8x4096x3 S8x4096x3 S8x4096x4096 [2] [2] [1] [1] [0] [0]
  gather_S8x40_S8x1x1_S8x1_n_1_0_0_1_2_11_wf : GatherDims.WF S8x40 S8x1x1 S8x1 [] [1] [0] [1] [0] 2 ![1, 1]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def gather_S8x40_S8x1x1_S8x1_n_1_0_0_1_2_11 : GatherDims S8x40 S8x1x1 S8x1 where
  offsetDims := []
  collapsedSliceDims := [1]
  operandBatchingDims := [0]
  startIndicesBatchingDims := [0]
  startIndexMap := [1]
  indexVectorDim := 2
  sliceSizes := ![1, 1]
  wf := gather_S8x40_S8x1x1_S8x1_n_1_0_0_1_2_11_wf

class Facts : Prop extends Facts₀ where

variable [Facts]
-- ==== Proof.LibWholeStore.lean ====
/-
  A store that covers its whole buffer reads back as its payload.

  A piece written through the rectangle of the buffer's own shape at zero offsets, newest in a list of pieces, determines
  every element: reading the buffer back gives the piece's payload, whatever the older pieces and the prior contents were.
  This is what makes an accumulator that is rewritten whole on every trip of a loop readable as an iterate of one step.
-/
import Idealize.ShloMosaic.Lib.Pipeline.Value
import Idealize.ShloMosaic.Lib.Pipeline.FrameBody

namespace Cert.LibWholeStore

open Idealize.ShloMosaic

/-- A store through the whole-shape rectangle at zero offsets, newest, reads back as its payload whatever lay below. -/
theorem read_writes_cons_whole {sig : RefSig} {κ : Kind} {sp : Space} {S : Shape} {e : EltTy} {Val : EltTy → Type}
    [∀ e, Nonempty (Val e)] (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- The zero offsets of a rank-two buffer, however spelt. -/
theorem zero2 : (![0, 0] : Fin 2 → ℕ) = fun _ => 0 := funext fun a => by match a with | ⟨0, _⟩ => rfl | ⟨1, _⟩ => rfl
/-- The zero offsets of a rank-three buffer, however spelt. -/
theorem zero3 : (![0, 0, 0] : Fin 3 → ℕ) = fun _ => 0 :=
  funext fun a => by match a with | ⟨0, _⟩ => rfl | ⟨1, _⟩ => rfl | ⟨2, _⟩ => rfl

end Cert.LibWholeStore
-- ==== Proof.Body0.lean ====
/-
  The chamfer kernel's body at one grid point, as a triple per control case.

  With D the tile of squared distances between the 256 source points of the tile and the 4096 points of the other
  cloud (a pure function of the two input blocks), the body adds the tile's sum of row minima to the first
  accumulator block, lowers the running column minimum kept in the scratch by the tile's column minima, and at the
  last tile of a cloud adds the sum of the running minimum to the second accumulator block. At the first tile it
  first resets the scratch to +inf and both accumulator blocks to zero.
-/
import proofs.«154242_j11184094838809_2_alg».proof.Proof.Gen.KernelIdeal.Launch
import proofs.«154242_j11184094838809_2_alg».proof.Proof.Gen.KernelIdeal.Skeleton
import proofs.«154242_j11184094838809_2_alg».proof.Proof.Gen.KernelIdeal.Points
import proofs.«154242_j11184094838809_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The first accumulator block after a tile: what it held plus the tile's sum of row minima. -/
abbrev accX (x0 : Vec F S1x256x3 .f32) (x1 : Vec F S1x4096x3 .f32) (a : Vec F S1x1x128 .f32) : Vec F S1x1x128 .f32 :=
  k0_pay1 (k0_pay7 x0 x1) a
/-- The running column minimum after a tile: what the scratch held lowered by the tile's column minima. -/
abbrev runMin (x0 : Vec F S1x256x3 .f32) (x1 : Vec F S1x4096x3 .f32) (s : Vec F S1x4096 .f32) : Vec F S1x4096 .f32 :=
  k0_pay2 (k0_pay7 x0 x1) s

set_option maxHeartbeats 4000000 in
/-- The first tile of a cloud: the scratch and both accumulator blocks are reset, then the tile is accumulated. -/
theorem run_first (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x1x128 .f32) (harg4 : arg4.IsWhole) (arg5 : Memref sig .tc .vmem S1x1x128 .f32) (harg5 : arg5.IsWhole)
    (arg6 : Memref sig .tc .vmem S1x4096 .f32) (harg6 : arg6.IsWhole)
    (hc1 : k0_cond1 i = 1#1) (hc2 : ¬ k0_cond2 i = 1#1)
    (x0 : Vec F S1x256x3 .f32) (x1 : Vec F S1x4096x3 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (accX x0 x1 (k0_pay5 (F := F)))
            ∗ owns (c : Thread nD τ) arg5 fullShare (k0_pay6 (F := F))
            ∗ owns (c : Thread nD τ) arg6 fullShare (runMin x0 x1 (k0_pay4 (F := F)))) -∗ K ⟨⟩))
      ⊢ wp frame (wpE (defs₀ (F := F)) Variants.none c none) E
          (cc0__chamfer_fused_kernel i arg2 harg2 arg3 harg3 arg4 harg4 arg5 harg5 arg6 harg6) K := by
  simp only [cc0__chamfer_fused_kernel_eq_skeleton]; unfold cc0__chamfer_fused_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, Hk⟩
  obtain rfl := harg2.eq_unread hf2; obtain rfl := harg3.eq_unread hf3
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  isplitl [H5]
  · iexists _; isplitr
    swap; · iexact H5
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  iexists _; isplitr
  swap; · iexact H6
  ipureintro
  refine (Cert.LibWholeStore.read_writes_cons_whole (S := S1x4096) _ _ Cert.LibWholeStore.zero2 _ _ _).trans ?_
  sl_unfold_words
  simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]

set_option maxHeartbeats 4000000 in
/-- A middle tile: neither reset nor final sum; the second accumulator block is not touched. -/
theorem run_mid (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x1x128 .f32) (harg4 : arg4.IsWhole) (arg5 : Memref sig .tc .vmem S1x1x128 .f32) (harg5 : arg5.IsWhole)
    (arg6 : Memref sig .tc .vmem S1x4096 .f32) (harg6 : arg6.IsWhole)
    (hc1 : ¬ k0_cond1 i = 1#1) (hc2 : ¬ k0_cond2 i = 1#1)
    (x0 : Vec F S1x256x3 .f32) (x1 : Vec F S1x4096x3 .f32) (a0 : Vec F S1x1x128 .f32) (s0 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare a0 ∗ owns (c : Thread nD τ) arg6 fullShare s0
        ∗ (iprop(owns (c : Thread nD τ) arg2 fullShare x0 ∗ owns (c : Thread nD τ) arg3 fullShare x1
            ∗ owns (c : Thread nD τ) arg4 fullShare (accX x0 x1 a0)
            ∗ owns (c : Thread nD τ) arg6 fullShare (runMin x0 x1 s0)) -∗ K ⟨⟩))
      ⊢ wp frame (wpE (defs₀ (F := F)) Variants.none c none) E
          (cc0__chamfer_fused_kernel i arg2 harg2 arg3 harg3 arg4 harg4 arg5 harg5 arg6 harg6) K := by
  simp only [cc0__chamfer_fused_kernel_eq_skeleton]; unfold cc0__chamfer_fused_kernel_skel
  simp only [k0_part1_eq_skeleton]; unfold k0_part1_skel
  unfold owns
  iintro ⟨⟨%f2, %hf2, H2⟩, ⟨%f3, %hf3, H3⟩, ⟨%f4, %hf4, H4⟩, ⟨%f6, %hf6, H6⟩, Hk⟩
  obtain rfl := harg2.eq_unread hf2; obtain rfl := harg3.eq_unread hf3
  obtain rfl := harg4.eq_unread hf4; obtain rfl := harg6.eq_unread hf6
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  iexists _; isplitr
  swap; · iexact H6
  ipureintro
  refine (Cert.LibWholeStore.read_writes_cons_whole (S := S1x4096) _ _ Cert.LibWholeStore.zero2 _ _ _).trans ?_
  sl_unfold_words
  simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]

set_option maxHeartbeats 4000000 in
/-- The last tile of a cloud: after the tile is accumulated, the running minimum's sum goes to the second block. -/
theorem run_last (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x1x128 .f32) (harg4 : arg4.IsWhole) (arg5 : Memref sig .tc .vmem S1x1x128 .f32) (harg5 : arg5.IsWhole)
    (arg6 : Memref sig .tc .vmem S1x4096 .f32) (harg6 : arg6.IsWhole)
    (hc1 : ¬ k0_cond1 i = 1#1) (hc2 : k0_cond2 i = 1#1)
    (x0 : Vec F S1x256x3 .f32) (x1 : Vec F S1x4096x3 .f32) (a0 : Vec F S1x1x128 .f32) (b0 : Vec F S1x1x128 .f32) (s0 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare a0 ∗ owns (c : Thread nD τ) arg5 fullShare b0 ∗ owns (c : Thread nD τ) arg6 fullShare s0
        ∗ (iprop(owns (c : Thread nD τ) arg2 fullShare x0 ∗ owns (c : Thread nD τ) arg3 fullShare x1
            ∗ owns (c : Thread nD τ) arg4 fullShare (accX x0 x1 a0)
            ∗ owns (c : Thread nD τ) arg5 fullShare (k0_pay3 (runMin x0 x1 s0) b0)
            ∗ owns (c : Thread nD τ) arg6 fullShare (runMin x0 x1 s0)) -∗ K ⟨⟩))
      ⊢ wp frame (wpE (defs₀ (F := F)) Variants.none c none) E
          (cc0__chamfer_fused_kernel i arg2 harg2 arg3 harg3 arg4 harg4 arg5 harg5 arg6 harg6) K := by
  simp only [cc0__chamfer_fused_kernel_eq_skeleton]; unfold cc0__chamfer_fused_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  isplitl [H5]
  · iexists _; isplitr
    swap; · iexact H5
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  iexists _; isplitr
  swap; · iexact H6
  ipureintro
  refine (Cert.LibWholeStore.read_writes_cons_whole (S := S1x4096) _ _ Cert.LibWholeStore.zero2 _ _ _).trans ?_
  sl_unfold_words
  simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]

end Cert.KernelIdeal.Body0

end
-- ==== Proof.Dat0.lean ====
/-
  The chamfer region's proof data and body obligation.

  Position k of the grid is tile k % 16 of cloud k / 16. After position k the first accumulator block holds the sum
  over the cloud's tiles so far of the tile's row-minimum sums, the scratch the running column minimum over those
  tiles, and the second accumulator block zero until the cloud's last tile, where it receives the sum of the running
  minimum. Between the first and the last tile the second block's buffer is not touched: it is handed back as found.
-/
import proofs.«154242_j11184094838809_2_alg».proof.Proof.Body0

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Body0

-- the buffers' contents when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulator blocks and the scratch. -/
abbrev St (F : FTy → Type) : Type := Vec F S1x1x128 .f32 × Vec F S1x1x128 .f32 × Vec F S1x4096 .f32

/-- One position's effect on the two accumulator blocks and the scratch. -/
def stepAt (c : Dev nD) (k : ℕ) (hk : k < cfg0.N) (p : St F) : St F :=
  if k % 16 = 0 then
    (accX (iblk V c 0 ⟨k, hk⟩) (iblk V c 1 ⟨k, hk⟩) (k0_pay5 (F := F)), k0_pay6 (F := F),
      runMin (iblk V c 0 ⟨k, hk⟩) (iblk V c 1 ⟨k, hk⟩) (k0_pay4 (F := F)))
  else if k % 16 = 15 then
    (accX (iblk V c 0 ⟨k, hk⟩) (iblk V c 1 ⟨k, hk⟩) p.1,
      k0_pay3 (runMin (iblk V c 0 ⟨k, hk⟩) (iblk V c 1 ⟨k, hk⟩) p.2.2) p.2.1,
      runMin (iblk V c 0 ⟨k, hk⟩) (iblk V c 1 ⟨k, hk⟩) p.2.2)
  else
    (accX (iblk V c 0 ⟨k, hk⟩) (iblk V c 1 ⟨k, hk⟩) p.1, p.2.1,
      runMin (iblk V c 0 ⟨k, hk⟩) (iblk V c 1 ⟨k, hk⟩) p.2.2)

/-- What the accumulator blocks and the scratch hold after position k. -/
def accAt (c : Dev nD) : (k : ℕ) → k < cfg0.N → St F
  | 0, h => stepAt V c 0 h (k0_pay5 (F := F), k0_pay6 (F := F), k0_pay4 (F := F))
  | k + 1, h => stepAt V c (k + 1) h (accAt c k (Nat.lt_of_succ_lt h))

theorem accAt_succ (c : Dev nD) (k : ℕ) (h : k + 1 < cfg0.N) :
    accAt V c (k + 1) h = stepAt V c (k + 1) h (accAt V c k (Nat.lt_of_succ_lt h)) := rfl

/-- At a position after the first, in terms of the position before. -/
theorem accAt_pos (c : Dev nD) (k : ℕ) (h : k < cfg0.N) (hz : k ≠ 0) :
    accAt V c k h = stepAt V c k h (accAt V c (k - 1) (Nat.lt_of_le_of_lt (Nat.sub_le _ _) h)) := by
  cases k with
  | zero => exact absurd rfl hz
  | succ k => rfl

/-- At a cloud's first tile the state does not depend on what came before. -/
theorem accAt_first (c : Dev nD) (k : ℕ) (h : k < cfg0.N) (h0 : k % 16 = 0) :
    accAt V c k h = (accX (iblk V c 0 ⟨k, h⟩) (iblk V c 1 ⟨k, h⟩) (k0_pay5 (F := F)), k0_pay6 (F := F),
      runMin (iblk V c 0 ⟨k, h⟩) (iblk V c 1 ⟨k, h⟩) (k0_pay4 (F := F))) := by
  cases k with
  | zero => unfold accAt stepAt; rw [if_pos h0]
  | succ k => rw [accAt_succ]; unfold stepAt; rw [if_pos h0]

/-! ## The invariant: the scratch at the running minimum -/

/-- The scratch operand as a memref. -/
abbrev scM : Memref sig .tc .vmem S1x4096 .f32 := Memref.whole cc0_scratch0

/-- The scoped buffers of the other kernel, which this region holds and does not use. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f))

theorem PhiA0_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- The region invariant before position n: before the first, the scratch at anything; afterwards at the running
    minimum the position before left. -/
def PhiS (c : Dev nD) : (n : ℕ) → n ≤ cfg0.N → sProp 𝕄
  | 0, _ => Pipeline.ΦA spec0 c
  | n + 1, hn => iprop(iprop(owns (c : Thread nD τ) scM fullShare ((accAt V c n hn).2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((accAt V c n hn).2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((accAt V c (n - 1) (by omega)).2.2) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (accAt V c t.val t.isLt).1
    | ⟨3, _⟩ => (accAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (accAt V c t.val t.isLt).1 := by dsimp only [dat]
theorem after_3 (c : Dev nD) (t : Fin cfg0.N) : (dat V c).after 3 t = (accAt V c t.val t.isLt).2.1 := by dsimp only [dat]

/-! ## The control cases over the grid, and where the second block's window is idle or written back -/

theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond2 : ∀ t : Fin cfg0.N, k0_cond2 (grid0.coords t) = 1#1 ↔ t.val % 16 = 15 :=
  (by decide +kernel : ∀ t : Fin grid0.N, k0_cond2 (grid0.coords t) = 1#1 ↔ t.val % 16 = 15)
theorem idle3 : ∀ t : Fin cfg0.N, cfg0.idle 3 (grid0.coords t) = true ↔ (t.val % 16 ≠ 0 ∧ t.val % 16 ≠ 15) :=
  (by decide +kernel : ∀ t : Fin grid0.N, cfg0.idle 3 (grid0.coords t) = true ↔ (t.val % 16 ≠ 0 ∧ t.val % 16 ≠ 15))

theorem flush2_false (t : Fin cfg0.N) (h : t.val % 16 ≠ 15) : (cfg0.win 2).flush t = false := by
  cases hf : (cfg0.win 2).flush t with
  | false => rfl
  | true => exact absurd ((flush0_2 t).mp hf) h
theorem flush3_false (t : Fin cfg0.N) (h : t.val % 16 ≠ 15) : (cfg0.win 3).flush t = false := by
  cases hf : (cfg0.win 3).flush t with
  | false => rfl
  | true => exact absurd ((flush0_3 t).mp hf) h
theorem idle3_false (t : Fin cfg0.N) (h : t.val % 16 = 0 ∨ t.val % 16 = 15) : cfg0.idle 3 (grid0.coords t) = false := by
  cases hf : cfg0.idle 3 (grid0.coords t) with
  | false => rfl
  | true => have := (idle3 t).mp hf; omega

/-! ## What each window's current buffer holds when the body runs -/

/-- The source tile: fetched at every point. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The other cloud: fetched at a cloud's first tile, in place afterwards. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The first accumulator block after a cloud's first tile: what the position before left. -/
theorem before_2 (c : Dev nD) (t : Fin cfg0.N) (h0 : t.val % 16 ≠ 0) (d) :
    (dat V c).before 2 t d = (accAt V c (t.val - 1) (Nat.lt_of_le_of_lt (Nat.sub_le _ _) t.isLt)).1 := by
  have ht : t.val ≠ 0 := fun h => h0 (by rw [h])
  rw [(dat V c).before_out_kept 2 rfl t ht (flush2_false ⟨t.val - 1, _⟩ (by show (t.val - 1) % 16 ≠ 15; omega)) (fun _ => rfl) (fun _ _ => rfl) d,
    after_2]

/-- An uncut window's buffer, left alone, is found as the body left it. -/
theorem kept_3 (c : Dev nD) (t : Fin cfg0.N) (d) : (dat V c).kept 3 t d = (dat V c).after 3 t := by
  unfold Dat.kept
  rw [Pipeline.fill_of_clip_none 3 _ (fun _ => rfl) d ((dat V c).after 3 t), Window.fill_cut]

/-- The second accumulator block after a cloud's first tile: the zero the first tile stored, carried through the
    points that do not touch it. -/
theorem before_3 (c : Dev nD) : ∀ (k : ℕ) (hk : k < cfg0.N), k % 16 ≠ 0 → ∀ d,
    (dat V c).before 3 ⟨k, hk⟩ d = (accAt V c (k - 1) (Nat.lt_of_le_of_lt (Nat.sub_le _ _) hk)).2.1
  | 0, _, h0, _ => absurd rfl h0
  | k + 1, hk, h0, d => by
    have hk' : k < cfg0.N := Nat.lt_of_succ_lt hk
    rw [(dat V c).before_of_pos 3 ⟨k + 1, hk⟩ (Nat.succ_ne_zero k) ((cfg0.win 3).fetch_out rfl _) d]
    rw [show (⟨(⟨k + 1, hk⟩ : Fin cfg0.N).val - 1, Nat.lt_of_le_of_lt (Nat.sub_le _ _) (⟨k + 1, hk⟩ : Fin cfg0.N).isLt⟩ : Fin cfg0.N) = ⟨k, hk'⟩ from rfl]
    rw [flush3_false ⟨k, hk'⟩ (by show k % 16 ≠ 15; omega), if_neg Bool.false_ne_true]
    show (dat V c).left 3 ⟨k, hk'⟩ d = (accAt V c k hk').2.1
    unfold Dat.left
    by_cases hk0 : k % 16 = 0
    · rw [idle3_false ⟨k, hk'⟩ (Or.inl hk0)]
      show (dat V c).kept 3 ⟨k, hk'⟩ d = _
      rw [kept_3, after_3]
    · rw [(idle3 ⟨k, hk'⟩).mpr ⟨hk0, by show k % 16 ≠ 15; omega⟩]
      show (dat V c).before 3 ⟨k, hk'⟩ d = _
      rw [before_3 c k hk' hk0 d, accAt_pos V c k hk' (fun h => hk0 (by rw [h]))]
      unfold stepAt; rw [if_neg hk0, if_neg (by omega : ¬ k % 16 = 15)]

end Cert.KernelIdeal.Reg0

end
-- ==== Proof.Obl0.lean ====
/-
  The chamfer region's body obligation: at every grid point the body, handed the invariant and each window's current
  buffer at what it then holds, runs to the invariant of the next point and each buffer at what the proof data says.
  The point's position in its cloud (first tile, last tile, in between) selects the body's control case.
-/
import proofs.«154242_j11184094838809_2_alg».proof.Proof.Dat0

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Body0

variable (V : (c : Dev nD) → (b : Ref sig .tc) → Buf (Elt F) ((c : Thread nD τ).loc b))

theorem before_3' (c : Dev nD) (t : Fin cfg0.N) (h0 : t.val % 16 ≠ 0) (d) :
    (dat V c).before 3 t d = (accAt V c (t.val - 1) (Nat.lt_of_le_of_lt (Nat.sub_le _ _) t.isLt)).2.1 :=
  before_3 V c t.val t.isLt h0 d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from rfl, after_0]
  rw [show (dat V c).leavesExact 1 t = owns (c : Thread nD τ) (st0_1 t) fullShare ((dat V c).after 1 t) from rfl, after_1]
  rw [show (dat V c).leavesExact 2 t = owns (c : Thread nD τ) (st0_2 t) fullShare ((dat V c).after 2 t) from rfl, after_2]
  by_cases h0 : t.val % 16 = 0
  · have h15 : ¬ t.val % 16 = 15 := by omega
    rw [show (dat V c).leavesExact 3 t = owns (c : Thread nD τ) (st0_3 t) fullShare ((dat V c).after 3 t) from by
      unfold Dat.leavesExact; rw [idle3_false t (Or.inl h0)], after_3]
    rw [accAt_first V c t.val t.isLt h0]
    dsimp only
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (run_first c (grid0.coords t) _ _ _ _ _ _ _ _ _ _ ((hcond1 t).mpr h0) (fun h => h15 ((hcond2 t).mp h)) (iblk V c 0 t) (iblk V c 1 t) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_first c (grid0.coords t) _ _ _ _ _ _ _ _ _ _ ((hcond1 t).mpr h0) (fun h => h15 ((hcond2 t).mp h)) (iblk V c 0 t) (iblk V c 1 t) Set.univ _)
      isplitl [H0]; · iexact H0
      isplitl [H1]; · iexact H1
      isplitl [H2]; · iexists _; iexact H2
      isplitl [H3]; · iexists _; iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
  · have hz : t.val ≠ 0 := fun h => h0 (by rw [h])
    by_cases h15 : t.val % 16 = 15
    · rw [show (dat V c).leavesExact 3 t = owns (c : Thread nD τ) (st0_3 t) fullShare ((dat V c).after 3 t) from by
        unfold Dat.leavesExact; rw [idle3_false t (Or.inr h15)], after_3]
      rw [accAt_pos V c t.val t.isLt hz]
      unfold stepAt; rw [if_neg h0, if_pos h15]
      dsimp only
      simp only [before_2 V c t h0, before_3' V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_last c (grid0.coords t) _ _ _ _ _ _ _ _ _ _ (fun h => h0 ((hcond1 t).mp h)) ((hcond2 t).mpr h15) (iblk V c 0 t) (iblk V c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · rw [Dat.leavesExact_idle (dat V c) 3 t ((idle3 t).mpr ⟨h0, h15⟩) (flush3_false t h15)]
      rw [accAt_pos V c t.val t.isLt hz]
      unfold stepAt; rw [if_neg h0, if_neg h15]
      dsimp only
      simp only [before_2 V c t h0]
      rw [PhiS_castSucc V c t, PhiS_pos V c _ _ hz]
      iintro ⟨⟨⟨HS, Hoth⟩, Hg⟩, Ho, ⟨%d0, H0⟩, ⟨%d1, H1⟩, ⟨%d2, H2⟩, H3⟩
      iapply (run_mid c (grid0.coords t) _ _ _ _ _ _ _ _ _ _ (fun h => h0 ((hcond1 t).mp h)) (fun h => h15 ((hcond2 t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA0_eq]
  iintro ⟨⟨HS, Hoth⟩, Hg⟩
  isplitl [HS Hoth]
  · isplitl [HS]; · iexists _; iexact HS
    iexact Hoth
  iexact Hg

end Cert.KernelIdeal.Reg0

end
-- ==== Proof.Body1.lean ====
/-
  The bit-rate kernel's body at one grid point, as a triple per control case: the one-element accumulator block
  ends at what it held (zero, at the first point, where it is reset first) plus the sum of the logarithms of the
  point's 256 x 1024 slab.
-/
import proofs.«154242_j11184094838809_2_alg».proof.Proof.Gen.KernelIdeal.Launch
import proofs.«154242_j11184094838809_2_alg».proof.Proof.Gen.KernelIdeal.Skeleton
import proofs.«154242_j11184094838809_2_alg».proof.Proof.Gen.KernelIdeal.Points
import proofs.«154242_j11184094838809_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The body's one branch condition, from the grid coordinate: whether this is the first point. -/
abbrev isFirst (i : grid1.Coords) : Prop :=
  (Scalar.cmpi .ne (Scalar.extui (Scalar.cmpi .eq (BitVec.ofNat 32 (i 0).val) 0#32)) 0#32) = 1#1

set_option maxHeartbeats 4000000 in
/-- The first point: the accumulator is reset to zero, then the slab's sum is added. -/
theorem run_first (c : Dev nD) (i : grid1.Coords)
    (arg1 : Memref sig .tc .vmem S1x256x1024 .f32) (harg1 : arg1.IsWhole) (arg2 : Memref sig .tc .vmem S1x1 .f32) (harg2 : arg2.IsWhole)
    (hc : isFirst i) (x : Vec F S1x256x1024 .f32) (E : Set ℕ) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k1_pay2 x (k1_pay1 (F := F)))) -∗ K ⟨⟩))
      ⊢ wp frame (wpE (defs₀ (F := F)) Variants.none c none) E (cc1__bpp_kernel i arg1 harg1 arg2 harg2) K := by
  simp only [cc1__bpp_kernel_eq_skeleton]; unfold cc1__bpp_kernel_skel
  unfold owns
  iintro ⟨⟨%f1, %hf1, H1⟩, ⟨%d2, %f2, -, H2⟩, Hk⟩
  obtain rfl := harg1.eq_unread hf1
  sl_exec (disch := exact hc)
  sl_step
  iapply Hk
  isplitl [H1]
  · iexists _; isplitr; · ipureintro; exact harg1.read_unread _
    iexact H1
  iexists _; isplitr
  swap; · iexact H2
  ipureintro
  refine (Cert.LibWholeStore.read_writes_cons_whole (S := S1x1) _ _ Cert.LibWholeStore.zero2 _ _ _).trans ?_
  sl_unfold_words
  simp only [View.readAt_eq_ld, harg1.read_unread, harg2.read_unread,
    View.ld_unit_zero (S := S1x256x1024) Cert.LibWholeStore.zero3, View.ld_unit_zero (S := S1x1) Cert.LibWholeStore.zero2,
    View.readCov_unit_zero (S := S1x1) _ Cert.LibWholeStore.zero2,
    Cert.LibWholeStore.read_writes_cons_whole (S := S1x1) _ _ Cert.LibWholeStore.zero2]

set_option maxHeartbeats 4000000 in
/-- A later point: the slab's sum is added to what the accumulator held. -/
theorem run_later (c : Dev nD) (i : grid1.Coords)
    (arg1 : Memref sig .tc .vmem S1x256x1024 .f32) (harg1 : arg1.IsWhole) (arg2 : Memref sig .tc .vmem S1x1 .f32) (harg2 : arg2.IsWhole)
    (hc : ¬ isFirst i) (x : Vec F S1x256x1024 .f32) (a0 : Vec F S1x1 .f32) (E : Set ℕ) (K : PUnit → sProp 𝕄) :
    iprop(owns (c : Thread nD τ) arg1 fullShare x ∗ owns (c : Thread nD τ) arg2 fullShare a0
        ∗ (iprop(owns (c : Thread nD τ) arg1 fullShare x ∗ owns (c : Thread nD τ) arg2 fullShare (k1_pay2 x a0)) -∗ K ⟨⟩))
      ⊢ wp frame (wpE (defs₀ (F := F)) Variants.none c none) E (cc1__bpp_kernel i arg1 harg1 arg2 harg2) K := by
  simp only [cc1__bpp_kernel_eq_skeleton]; unfold cc1__bpp_kernel_skel
  unfold owns
  iintro ⟨⟨%f1, %hf1, H1⟩, ⟨%f2, %hf2, H2⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  iexists _; isplitr
  swap; · iexact H2
  ipureintro
  refine (Cert.LibWholeStore.read_writes_cons_whole (S := S1x1) _ _ Cert.LibWholeStore.zero2 _ _ _).trans ?_
  sl_unfold_words
  simp only [View.readAt_eq_ld, harg1.read_unread, harg2.read_unread,
    View.ld_unit_zero (S := S1x256x1024) Cert.LibWholeStore.zero3, View.ld_unit_zero (S := S1x1) Cert.LibWholeStore.zero2,
    View.readCov_unit_zero (S := S1x1) _ Cert.LibWholeStore.zero2,
    Cert.LibWholeStore.read_writes_cons_whole (S := S1x1) _ _ Cert.LibWholeStore.zero2]

end Cert.KernelIdeal.Body1

end
-- ==== Proof.Reg1.lean ====
/-
  The bit-rate region's proof data and body obligation. Its one-element output block is an accumulator over the
  eight grid points: after point k it holds the sum over the slabs 0..k of the slab's sum of logarithms (each
  added to what the block held, zero at the first point); it is written back once, after the last point.
-/
import proofs.«154242_j11184094838809_2_alg».proof.Proof.Body1

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Body1

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator block after point k. -/
def accAt (c : Dev nD) : (k : ℕ) → k < cfg1.N → Vec F S1x1 .f32
  | 0, h => k1_pay2 (iblk V c 0 ⟨0, h⟩) (k1_pay1 (F := F))
  | k + 1, h => k1_pay2 (iblk V c 0 ⟨k + 1, h⟩) (accAt c k (Nat.lt_of_succ_lt h))

theorem accAt_zero (c : Dev nD) (k : ℕ) (h : k < cfg1.N) (hz : k = 0) :
    accAt V c k h = k1_pay2 (iblk V c 0 ⟨k, h⟩) (k1_pay1 (F := F)) := by subst hz; rfl

theorem accAt_pos (c : Dev nD) (k : ℕ) (h : k < cfg1.N) (hz : k ≠ 0) :
    accAt V c k h = k1_pay2 (iblk V c 0 ⟨k, h⟩) (accAt V c (k - 1) (Nat.lt_of_le_of_lt (Nat.sub_le _ _) h)) := by
  cases k with
  | zero => exact absurd rfl hz
  | succ k => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => accAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = accAt V c t.val t.isLt := by dsimp only [dat]

theorem hfirst : ∀ t : Fin cfg1.N, isFirst (grid1.coords t) ↔ t.val = 0 :=
  (by decide +kernel : ∀ t : Fin grid1.N, isFirst (grid1.coords t) ↔ t.val = 0)

theorem flush1_false (t : Fin cfg1.N) (h : t.val % 8 ≠ 7) : (cfg1.win 1).flush t = false := by
  cases hf : (cfg1.win 1).flush t with
  | false => rfl
  | true => exact absurd ((flush1_1 t).mp hf) h

/-- The slab: fetched at every point. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The accumulator after the first point: what the point before left. -/
theorem before_1 (c : Dev nD) (t : Fin cfg1.N) (hz : t.val ≠ 0) (d) :
    (dat V c).before 1 t d = accAt V c (t.val - 1) (Nat.lt_of_le_of_lt (Nat.sub_le _ _) t.isLt) := by
  have hN : t.val < 8 := lt_of_lt_of_eq t.isLt (show cfg1.N = 8 from N_1)
  rw [(dat V c).before_out_kept 1 rfl t hz (flush1_false ⟨t.val - 1, _⟩ (by show (t.val - 1) % 8 ≠ 7; omega)) (fun _ => rfl) (fun _ _ => rfl) d,
    after_1]

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

def bodyPost (c : Dev nD) (t : Fin cfg1.N) : sProp 𝕄 :=
  iprop((dat V c).Φ t.succ ∗ (dat V c).owesAt () t.succ
    ∗ (dat V c).leavesExact 0 t ∗ (dat V c).leavesExact 1 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).owesAt () t.succ = (dat V c).owesAt () t.castSucc from rfl]
  rw [show (dat V c).Φ t.succ = (dat V c).Φ t.castSucc from rfl]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  by_cases hz : t.val = 0
  · rw [accAt_zero V c t.val t.isLt hz]
    iintro ⟨HΦ, Ho, ⟨%d0, H0⟩, ⟨%d1, H1⟩⟩
    iapply (run_first c (grid1.coords t) _ _ _ _ ((hfirst t).mpr hz) (iblk V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [accAt_pos V c t.val t.isLt hz]
    simp only [before_1 V c t hz]
    iintro ⟨HΦ, Ho, ⟨%d0, H0⟩, ⟨%d1, H1⟩⟩
    iapply (run_later c (grid1.coords t) _ _ _ _ (fun h => hz ((hfirst t).mp h)) (iblk V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.Run.lean ====
/-
  The run of the whole program: the chamfer region, the host lines that turn its two accumulator arrays into the
  reconstruction loss, the bit-rate region, and the host lines after it (the bit-rate loss, the classification loss,
  their sum). Every weakly fair execution terminates, and at the end every buffer that is not a kernel's own holds
  what the fold below computes from the launch memory: a region's arrays at what its write-backs leave, a host
  line's result at the line's function of its operands.
-/
import proofs.«154242_j11184094838809_2_alg».proof.Proof.Obl0
import proofs.«154242_j11184094838809_2_alg».proof.Proof.Reg1
import proofs.«154242_j11184094838809_2_alg».proof.Proof.Gen.KernelIdeal.Regions
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The buffers' contents at each boundary of @main -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the chamfer region: its arrays at what its write-backs leave. -/
def W1 (c : Dev nD) : Valuation τ sig (Elt F) :=
  Pipeline.withArrays spec0 c (W0 m c) fun w => (Reg0.dat (V0 m) c).arrAt w cfg0.N
theorem W1_arr (c : Dev nD) (w : Fin cfg0.W) :
    W1 m c (Proc.devRef .tc (Pipeline.arrRef spec0 w)) = (Reg0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Reg0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host lines between the regions. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the bit-rate region. -/
def W3 (c : Dev nD) : Valuation τ sig (Elt F) :=
  Pipeline.withArrays spec1 c (W2 m c) fun w => (Reg1.dat (V2 m) c).arrAt w cfg1.N
theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Reg1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After each of the four stretches of host lines that follow. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Reg0.dat (V0 m) c
  | ⟨1, _⟩ => fun c => Reg1.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at its entry contents, left with its arrays
    at what its write-backs leave and every other buffer as entered; the generator register rides through the
    invariant; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (V0 m) c)
    unfold Pipeline.ΦA
    iintro ⟨Hp, -, Hr⟩
    isplitl [Hr]; · iexact Hr
    iexact Hp
  hout c := by
    rw [Pipeline.ownSems0_none]
    refine (Reg0.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its arrays
    at what its write-backs leave and every other buffer as entered; the generator register rides through the
    invariant; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)) ]

set_option backward.isDefEq.respectTransparency.types false in
/-- Every weakly fair execution of @main terminates, and every final memory holds each buffer that is no kernel's
    own at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Run

end
-- ==== Proof.Args.lean ====
/-
  The argument arrays at the run's last boundary are the launch's: no host line writes one, and a region that stages
  one as an input window leaves it as it found it.
-/
import proofs.«154242_j11184094838809_2_alg».proof.Proof.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

theorem tailKeeps (c : Dev nD) (r : Ref sig .tc) (h3 : r ∉ hostOps2_3_W) (h22 : r ∉ hostOps2_2_W) (h21 : r ∉ hostOps2_1_W)
    (h2 : r ∉ hostOps2_W) : W7 m c (Proc.devRef .tc r) = W3 m c (Proc.devRef .tc r) :=
  (StableHlo.after_of_writes_sub hostOps2_3 _ hostOps2_3_writes h3).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2)

theorem W1_arg0 (c : Dev nD) : W1 m c (Proc.devRef .tc main_arg0) = m ((c : Thread nD τ).loc main_arg0) :=
  (W1_arr m c 0).trans (((Reg0.dat (V0 m) c).arrAt_in 0 rfl _).trans (Reg0.A_eq (V0 m) c 0))
theorem W1_arg1 (c : Dev nD) : W1 m c (Proc.devRef .tc main_arg1) = m ((c : Thread nD τ).loc main_arg1) :=
  (W1_arr m c 1).trans (((Reg0.dat (V0 m) c).arrAt_in 1 rfl _).trans (Reg0.A_eq (V0 m) c 1))

theorem W7_arg0 (c : Dev nD) : W7 m c (Proc.devRef .tc main_arg0) = m ((c : Thread nD τ).loc main_arg0) :=
  (tailKeeps m c main_arg0 (by decide) (by decide) (by decide) (by decide)).trans <|
  (W3_of_ne m c main_arg0 (by decide)).trans <|
  (StableHlo.after_of_writes_sub hostOps1 _ hostOps1_writes (by decide)).trans (W1_arg0 m c)
theorem W7_arg1 (c : Dev nD) : W7 m c (Proc.devRef .tc main_arg1) = m ((c : Thread nD τ).loc main_arg1) :=
  (tailKeeps m c main_arg1 (by decide) (by decide) (by decide) (by decide)).trans <|
  (W3_of_ne m c main_arg1 (by decide)).trans <|
  (StableHlo.after_of_writes_sub hostOps1 _ hostOps1_writes (by decide)).trans (W1_arg1 m c)
theorem W7_arg2 (c : Dev nD) : W7 m c (Proc.devRef .tc main_arg2) = m ((c : Thread nD τ).loc main_arg2) :=
  (tailKeeps m c main_arg2 (by decide) (by decide) (by decide) (by decide)).trans <|
  (W3_of_ne m c main_arg2 (by decide)).trans <|
  (StableHlo.after_of_writes_sub hostOps1 _ hostOps1_writes (by decide)).trans (W1_of_ne m c main_arg2 (by decide))
theorem W7_arg3 (c : Dev nD) : W7 m c (Proc.devRef .tc main_arg3) = m ((c : Thread nD τ).loc main_arg3) :=
  (tailKeeps m c main_arg3 (by decide) (by decide) (by decide) (by decide)).trans <|
  (W3_of_ne m c main_arg3 (by decide)).trans <|
  (StableHlo.after_of_writes_sub hostOps1 _ hostOps1_writes (by decide)).trans (W1_of_ne m c main_arg3 (by decide))
theorem W7_arg4 (c : Dev nD) : W7 m c (Proc.devRef .tc main_arg4) = m ((c : Thread nD τ).loc main_arg4) :=
  (tailKeeps m c main_arg4 (by decide) (by decide) (by decide) (by decide)).trans <|
  (W3_arr m c 0).trans <| ((Reg1.dat (V2 m) c).arrAt_in 0 rfl _).trans <| (Reg1.A_eq (V2 m) c 0).trans <|
  (StableHlo.after_of_writes_sub hostOps1 _ hostOps1_writes (by decide)).trans (W1_of_ne m c main_arg4 (by decide))

/-- The frame: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_arg0 m c),
      (h c _ (mem_uc main_arg1 (by decide))).trans (W7_arg1 m c),
      (h c _ (mem_uc main_arg2 (by decide))).trans (W7_arg2 m c),
      (h c _ (mem_uc main_arg3 (by decide))).trans (W7_arg3 m c),
      (h c _ (mem_uc main_arg4 (by decide))).trans (W7_arg4 m c)⟩) (run_all m ρ)

end Cert.KernelIdeal.Run

end
-- ==== Proof.WordBody0.lean ====
/-
  The chamfer kernel's body at one grid point, as a triple per control case.

  With D the tile of squared distances between the 256 source points of the tile and the 4096 points of the other
  cloud (a pure function of the two input blocks), the body adds the tile's sum of row minima to the first
  accumulator block, lowers the running column minimum kept in the scratch by the tile's column minima, and at the
  last tile of a cloud adds the sum of the running minimum to the second accumulator block. At the first tile it
  first resets the scratch to +inf and both accumulator blocks to zero.
-/
import proofs.«154242_j11184094838809_2_alg».proof.Proof.Gen.Kernel.Launch
import proofs.«154242_j11184094838809_2_alg».proof.Proof.Gen.Kernel.Skeleton
import proofs.«154242_j11184094838809_2_alg».proof.Proof.Gen.Kernel.Points
import proofs.«154242_j11184094838809_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The first accumulator block after a tile: what it held plus the tile's sum of row minima. -/
abbrev accX (x0 : Vec F S1x256x3 .f32) (x1 : Vec F S1x4096x3 .f32) (a : Vec F S1x1x128 .f32) : Vec F S1x1x128 .f32 :=
  k0_pay1 (k0_pay7 x0 x1) a
/-- The running column minimum after a tile: what the scratch held lowered by the tile's column minima. -/
abbrev runMin (x0 : Vec F S1x256x3 .f32) (x1 : Vec F S1x4096x3 .f32) (s : Vec F S1x4096 .f32) : Vec F S1x4096 .f32 :=
  k0_pay2 (k0_pay7 x0 x1) s

set_option maxHeartbeats 4000000 in
/-- The first tile of a cloud: the scratch and both accumulator blocks are reset, then the tile is accumulated. -/
theorem run_first (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x1x128 .f32) (harg4 : arg4.IsWhole) (arg5 : Memref sig .tc .vmem S1x1x128 .f32) (harg5 : arg5.IsWhole)
    (arg6 : Memref sig .tc .vmem S1x4096 .f32) (harg6 : arg6.IsWhole)
    (hc1 : k0_cond1 i = 1#1) (hc2 : ¬ k0_cond2 i = 1#1)
    (x0 : Vec F S1x256x3 .f32) (x1 : Vec F S1x4096x3 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (accX x0 x1 (k0_pay5 (F := F)))
            ∗ owns (c : Thread nD τ) arg5 fullShare (k0_pay6 (F := F))
            ∗ owns (c : Thread nD τ) arg6 fullShare (runMin x0 x1 (k0_pay4 (F := F)))) -∗ K ⟨⟩))
      ⊢ wp frame (wpE (defs₀ (F := F)) Variants.none c none) E
          (cc0__chamfer_fused_kernel i arg2 harg2 arg3 harg3 arg4 harg4 arg5 harg5 arg6 harg6) K := by
  simp only [cc0__chamfer_fused_kernel_eq_skeleton]; unfold cc0__chamfer_fused_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, Hk⟩
  obtain rfl := harg2.eq_unread hf2; obtain rfl := harg3.eq_unread hf3
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  isplitl [H5]
  · iexists _; isplitr
    swap; · iexact H5
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  iexists _; isplitr
  swap; · iexact H6
  ipureintro
  refine (Cert.LibWholeStore.read_writes_cons_whole (S := S1x4096) _ _ Cert.LibWholeStore.zero2 _ _ _).trans ?_
  sl_unfold_words
  simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]

set_option maxHeartbeats 4000000 in
/-- A middle tile: neither reset nor final sum; the second accumulator block is not touched. -/
theorem run_mid (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x1x128 .f32) (harg4 : arg4.IsWhole) (arg5 : Memref sig .tc .vmem S1x1x128 .f32) (harg5 : arg5.IsWhole)
    (arg6 : Memref sig .tc .vmem S1x4096 .f32) (harg6 : arg6.IsWhole)
    (hc1 : ¬ k0_cond1 i = 1#1) (hc2 : ¬ k0_cond2 i = 1#1)
    (x0 : Vec F S1x256x3 .f32) (x1 : Vec F S1x4096x3 .f32) (a0 : Vec F S1x1x128 .f32) (s0 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare a0 ∗ owns (c : Thread nD τ) arg6 fullShare s0
        ∗ (iprop(owns (c : Thread nD τ) arg2 fullShare x0 ∗ owns (c : Thread nD τ) arg3 fullShare x1
            ∗ owns (c : Thread nD τ) arg4 fullShare (accX x0 x1 a0)
            ∗ owns (c : Thread nD τ) arg6 fullShare (runMin x0 x1 s0)) -∗ K ⟨⟩))
      ⊢ wp frame (wpE (defs₀ (F := F)) Variants.none c none) E
          (cc0__chamfer_fused_kernel i arg2 harg2 arg3 harg3 arg4 harg4 arg5 harg5 arg6 harg6) K := by
  simp only [cc0__chamfer_fused_kernel_eq_skeleton]; unfold cc0__chamfer_fused_kernel_skel
  simp only [k0_part1_eq_skeleton]; unfold k0_part1_skel
  unfold owns
  iintro ⟨⟨%f2, %hf2, H2⟩, ⟨%f3, %hf3, H3⟩, ⟨%f4, %hf4, H4⟩, ⟨%f6, %hf6, H6⟩, Hk⟩
  obtain rfl := harg2.eq_unread hf2; obtain rfl := harg3.eq_unread hf3
  obtain rfl := harg4.eq_unread hf4; obtain rfl := harg6.eq_unread hf6
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  iexists _; isplitr
  swap; · iexact H6
  ipureintro
  refine (Cert.LibWholeStore.read_writes_cons_whole (S := S1x4096) _ _ Cert.LibWholeStore.zero2 _ _ _).trans ?_
  sl_unfold_words
  simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]

set_option maxHeartbeats 4000000 in
/-- The last tile of a cloud: after the tile is accumulated, the running minimum's sum goes to the second block. -/
theorem run_last (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x1x128 .f32) (harg4 : arg4.IsWhole) (arg5 : Memref sig .tc .vmem S1x1x128 .f32) (harg5 : arg5.IsWhole)
    (arg6 : Memref sig .tc .vmem S1x4096 .f32) (harg6 : arg6.IsWhole)
    (hc1 : ¬ k0_cond1 i = 1#1) (hc2 : k0_cond2 i = 1#1)
    (x0 : Vec F S1x256x3 .f32) (x1 : Vec F S1x4096x3 .f32) (a0 : Vec F S1x1x128 .f32) (b0 : Vec F S1x1x128 .f32) (s0 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare a0 ∗ owns (c : Thread nD τ) arg5 fullShare b0 ∗ owns (c : Thread nD τ) arg6 fullShare s0
        ∗ (iprop(owns (c : Thread nD τ) arg2 fullShare x0 ∗ owns (c : Thread nD τ) arg3 fullShare x1
            ∗ owns (c : Thread nD τ) arg4 fullShare (accX x0 x1 a0)
            ∗ owns (c : Thread nD τ) arg5 fullShare (k0_pay3 (runMin x0 x1 s0) b0)
            ∗ owns (c : Thread nD τ) arg6 fullShare (runMin x0 x1 s0)) -∗ K ⟨⟩))
      ⊢ wp frame (wpE (defs₀ (F := F)) Variants.none c none) E
          (cc0__chamfer_fused_kernel i arg2 harg2 arg3 harg3 arg4 harg4 arg5 harg5 arg6 harg6) K := by
  simp only [cc0__chamfer_fused_kernel_eq_skeleton]; unfold cc0__chamfer_fused_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  isplitl [H5]
  · iexists _; isplitr
    swap; · iexact H5
    ipureintro
    refine (Cert.LibWholeStore.read_writes_cons_whole (S := S1x1x128) _ _ Cert.LibWholeStore.zero3 _ _ _).trans ?_
    sl_unfold_words
    simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]
  iexists _; isplitr
  swap; · iexact H6
  ipureintro
  refine (Cert.LibWholeStore.read_writes_cons_whole (S := S1x4096) _ _ Cert.LibWholeStore.zero2 _ _ _).trans ?_
  sl_unfold_words
  simp only [View.readAt_eq_ld, harg2.read_unread, harg3.read_unread, harg4.read_unread, harg5.read_unread, harg6.read_unread,
      View.ld_unit_zero (S := S1x256x3) Cert.LibWholeStore.zero3, View.ld_unit_zero (S := S1x4096x3) Cert.LibWholeStore.zero3,
      View.ld_unit_zero (S := S1x1x128) Cert.LibWholeStore.zero3, View.ld_unit_zero (S := S1x4096) Cert.LibWholeStore.zero2,
      View.readCov_unit_zero (S := S1x1x128) _ Cert.LibWholeStore.zero3, View.readCov_unit_zero (S := S1x4096) _ Cert.LibWholeStore.zero2,
      Cert.LibWholeStore.read_writes_cons_whole (S := S1x1x128) _ _ Cert.LibWholeStore.zero3,
      Cert.LibWholeStore.read_writes_cons_whole (S := S1x4096) _ _ Cert.LibWholeStore.zero2]

end Cert.Kernel.Body0

end
-- ==== Proof.WordDat0.lean ====
/-
  The chamfer region's proof data and body obligation.

  Position k of the grid is tile k % 16 of cloud k / 16. After position k the first accumulator block holds the sum
  over the cloud's tiles so far of the tile's row-minimum sums, the scratch the running column minimum over those
  tiles, and the second accumulator block zero until the cloud's last tile, where it receives the sum of the running
  minimum. Between the first and the last tile the second block's buffer is not touched: it is handed back as found.
-/
import proofs.«154242_j11184094838809_2_alg».proof.Proof.WordBody0

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Body0

-- the buffers' contents when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulator blocks and the scratch. -/
abbrev St (F : FTy → Type) : Type := Vec F S1x1x128 .f32 × Vec F S1x1x128 .f32 × Vec F S1x4096 .f32

/-- One position's effect on the two accumulator blocks and the scratch. -/
def stepAt (c : Dev nD) (k : ℕ) (hk : k < cfg0.N) (p : St F) : St F :=
  if k % 16 = 0 then
    (accX (iblk V c 0 ⟨k, hk⟩) (iblk V c 1 ⟨k, hk⟩) (k0_pay5 (F := F)), k0_pay6 (F := F),
      runMin (iblk V c 0 ⟨k, hk⟩) (iblk V c 1 ⟨k, hk⟩) (k0_pay4 (F := F)))
  else if k % 16 = 15 then
    (accX (iblk V c 0 ⟨k, hk⟩) (iblk V c 1 ⟨k, hk⟩) p.1,
      k0_pay3 (runMin (iblk V c 0 ⟨k, hk⟩) (iblk V c 1 ⟨k, hk⟩) p.2.2) p.2.1,
      runMin (iblk V c 0 ⟨k, hk⟩) (iblk V c 1 ⟨k, hk⟩) p.2.2)
  else
    (accX (iblk V c 0 ⟨k, hk⟩) (iblk V c 1 ⟨k, hk⟩) p.1, p.2.1,
      runMin (iblk V c 0 ⟨k, hk⟩) (iblk V c 1 ⟨k, hk⟩) p.2.2)

/-- What the accumulator blocks and the scratch hold after position k. -/
def accAt (c : Dev nD) : (k : ℕ) → k < cfg0.N → St F
  | 0, h => stepAt V c 0 h (k0_pay5 (F := F), k0_pay6 (F := F), k0_pay4 (F := F))
  | k + 1, h => stepAt V c (k + 1) h (accAt c k (Nat.lt_of_succ_lt h))

theorem accAt_succ (c : Dev nD) (k : ℕ) (h : k + 1 < cfg0.N) :
    accAt V c (k + 1) h = stepAt V c (k + 1) h (accAt V c k (Nat.lt_of_succ_lt h)) := rfl

/-- At a position after the first, in terms of the position before. -/
theorem accAt_pos (c : Dev nD) (k : ℕ) (h : k < cfg0.N) (hz : k ≠ 0) :
    accAt V c k h = stepAt V c k h (accAt V c (k - 1) (Nat.lt_of_le_of_lt (Nat.sub_le _ _) h)) := by
  cases k with
  | zero => exact absurd rfl hz
  | succ k => rfl

/-- At a cloud's first tile the state does not depend on what came before. -/
theorem accAt_first (c : Dev nD) (k : ℕ) (h : k < cfg0.N) (h0 : k % 16 = 0) :
    accAt V c k h = (accX (iblk V c 0 ⟨k, h⟩) (iblk V c 1 ⟨k, h⟩) (k0_pay5 (F := F)), k0_pay6 (F := F),
      runMin (iblk V c 0 ⟨k, h⟩) (iblk V c 1 ⟨k, h⟩) (k0_pay4 (F := F))) := by
  cases k with
  | zero => unfold accAt stepAt; rw [if_pos h0]
  | succ k => rw [accAt_succ]; unfold stepAt; rw [if_pos h0]

/-! ## The invariant: the scratch at the running minimum -/

/-- The scratch operand as a memref. -/
abbrev scM : Memref sig .tc .vmem S1x4096 .f32 := Memref.whole cc0_scratch0

/-- The scoped buffers of the other kernel, which this region holds and does not use. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f))

theorem PhiA0_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- The region invariant before position n: before the first, the scratch at anything; afterwards at the running
    minimum the position before left. -/
def PhiS (c : Dev nD) : (n : ℕ) → n ≤ cfg0.N → sProp 𝕄
  | 0, _ => Pipeline.ΦA spec0 c
  | n + 1, hn => iprop(iprop(owns (c : Thread nD τ) scM fullShare ((accAt V c n hn).2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((accAt V c n hn).2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((accAt V c (n - 1) (by omega)).2.2) ∗ others (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (accAt V c t.val t.isLt).1
    | ⟨3, _⟩ => (accAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (accAt V c t.val t.isLt).1 := by dsimp only [dat]
theorem after_3 (c : Dev nD) (t : Fin cfg0.N) : (dat V c).after 3 t = (accAt V c t.val t.isLt).2.1 := by dsimp only [dat]

/-! ## The control cases over the grid, and where the second block's window is idle or written back -/

theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond2 : ∀ t : Fin cfg0.N, k0_cond2 (grid0.coords t) = 1#1 ↔ t.val % 16 = 15 :=
  (by decide +kernel : ∀ t : Fin grid0.N, k0_cond2 (grid0.coords t) = 1#1 ↔ t.val % 16 = 15)
theorem idle3 : ∀ t : Fin cfg0.N, cfg0.idle 3 (grid0.coords t) = true ↔ (t.val % 16 ≠ 0 ∧ t.val % 16 ≠ 15) :=
  (by decide +kernel : ∀ t : Fin grid0.N, cfg0.idle 3 (grid0.coords t) = true ↔ (t.val % 16 ≠ 0 ∧ t.val % 16 ≠ 15))

theorem flush2_false (t : Fin cfg0.N) (h : t.val % 16 ≠ 15) : (cfg0.win 2).flush t = false := by
  cases hf : (cfg0.win 2).flush t with
  | false => rfl
  | true => exact absurd ((flush0_2 t).mp hf) h
theorem flush3_false (t : Fin cfg0.N) (h : t.val % 16 ≠ 15) : (cfg0.win 3).flush t = false := by
  cases hf : (cfg0.win 3).flush t with
  | false => rfl
  | true => exact absurd ((flush0_3 t).mp hf) h
theorem idle3_false (t : Fin cfg0.N) (h : t.val % 16 = 0 ∨ t.val % 16 = 15) : cfg0.idle 3 (grid0.coords t) = false := by
  cases hf : cfg0.idle 3 (grid0.coords t) with
  | false => rfl
  | true => have := (idle3 t).mp hf; omega

/-! ## What each window's current buffer holds when the body runs -/

/-- The source tile: fetched at every point. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The other cloud: fetched at a cloud's first tile, in place afterwards. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The first accumulator block after a cloud's first tile: what the position before left. -/
theorem before_2 (c : Dev nD) (t : Fin cfg0.N) (h0 : t.val % 16 ≠ 0) (d) :
    (dat V c).before 2 t d = (accAt V c (t.val - 1) (Nat.lt_of_le_of_lt (Nat.sub_le _ _) t.isLt)).1 := by
  have ht : t.val ≠ 0 := fun h => h0 (by rw [h])
  rw [(dat V c).before_out_kept 2 rfl t ht (flush2_false ⟨t.val - 1, _⟩ (by show (t.val - 1) % 16 ≠ 15; omega)) (fun _ => rfl) (fun _ _ => rfl) d,
    after_2]

/-- An uncut window's buffer, left alone, is found as the body left it. -/
theorem kept_3 (c : Dev nD) (t : Fin cfg0.N) (d) : (dat V c).kept 3 t d = (dat V c).after 3 t := by
  unfold Dat.kept
  rw [Pipeline.fill_of_clip_none 3 _ (fun _ => rfl) d ((dat V c).after 3 t), Window.fill_cut]

/-- The second accumulator block after a cloud's first tile: the zero the first tile stored, carried through the
    points that do not touch it. -/
theorem before_3 (c : Dev nD) : ∀ (k : ℕ) (hk : k < cfg0.N), k % 16 ≠ 0 → ∀ d,
    (dat V c).before 3 ⟨k, hk⟩ d = (accAt V c (k - 1) (Nat.lt_of_le_of_lt (Nat.sub_le _ _) hk)).2.1
  | 0, _, h0, _ => absurd rfl h0
  | k + 1, hk, h0, d => by
    have hk' : k < cfg0.N := Nat.lt_of_succ_lt hk
    rw [(dat V c).before_of_pos 3 ⟨k + 1, hk⟩ (Nat.succ_ne_zero k) ((cfg0.win 3).fetch_out rfl _) d]
    rw [show (⟨(⟨k + 1, hk⟩ : Fin cfg0.N).val - 1, Nat.lt_of_le_of_lt (Nat.sub_le _ _) (⟨k + 1, hk⟩ : Fin cfg0.N).isLt⟩ : Fin cfg0.N) = ⟨k, hk'⟩ from rfl]
    rw [flush3_false ⟨k, hk'⟩ (by show k % 16 ≠ 15; omega), if_neg Bool.false_ne_true]
    show (dat V c).left 3 ⟨k, hk'⟩ d = (accAt V c k hk').2.1
    unfold Dat.left
    by_cases hk0 : k % 16 = 0
    · rw [idle3_false ⟨k, hk'⟩ (Or.inl hk0)]
      show (dat V c).kept 3 ⟨k, hk'⟩ d = _
      rw [kept_3, after_3]
    · rw [(idle3 ⟨k, hk'⟩).mpr ⟨hk0, by show k % 16 ≠ 15; omega⟩]
      show (dat V c).before 3 ⟨k, hk'⟩ d = _
      rw [before_3 c k hk' hk0 d, accAt_pos V c k hk' (fun h => hk0 (by rw [h]))]
      unfold stepAt; rw [if_neg hk0, if_neg (by omega : ¬ k % 16 = 15)]

end Cert.Kernel.Reg0

end
-- ==== Proof.WordObl0.lean ====
/-
  The chamfer region's body obligation: at every grid point the body, handed the invariant and each window's current
  buffer at what it then holds, runs to the invariant of the next point and each buffer at what the proof data says.
  The point's position in its cloud (first tile, last tile, in between) selects the body's control case.
-/
import proofs.«154242_j11184094838809_2_alg».proof.Proof.WordDat0

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Body0

variable (V : (c : Dev nD) → (b : Ref sig .tc) → Buf (Elt F) ((c : Thread nD τ).loc b))

theorem before_3' (c : Dev nD) (t : Fin cfg0.N) (h0 : t.val % 16 ≠ 0) (d) :
    (dat V c).before 3 t d = (accAt V c (t.val - 1) (Nat.lt_of_le_of_lt (Nat.sub_le _ _) t.isLt)).2.1 :=
  before_3 V c t.val t.isLt h0 d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from rfl, after_0]
  rw [show (dat V c).leavesExact 1 t = owns (c : Thread nD τ) (st0_1 t) fullShare ((dat V c).after 1 t) from rfl, after_1]
  rw [show (dat V c).leavesExact 2 t = owns (c : Thread nD τ) (st0_2 t) fullShare ((dat V c).after 2 t) from rfl, after_2]
  by_cases h0 : t.val % 16 = 0
  · have h15 : ¬ t.val % 16 = 15 := by omega
    rw [show (dat V c).leavesExact 3 t = owns (c : Thread nD τ) (st0_3 t) fullShare ((dat V c).after 3 t) from by
      unfold Dat.leavesExact; rw [idle3_false t (Or.inl h0)], after_3]
    rw [accAt_first V c t.val t.isLt h0]
    dsimp only
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (run_first c (grid0.coords t) _ _ _ _ _ _ _ _ _ _ ((hcond1 t).mpr h0) (fun h => h15 ((hcond2 t).mp h)) (iblk V c 0 t) (iblk V c 1 t) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_first c (grid0.coords t) _ _ _ _ _ _ _ _ _ _ ((hcond1 t).mpr h0) (fun h => h15 ((hcond2 t).mp h)) (iblk V c 0 t) (iblk V c 1 t) Set.univ _)
      isplitl [H0]; · iexact H0
      isplitl [H1]; · iexact H1
      isplitl [H2]; · iexists _; iexact H2
      isplitl [H3]; · iexists _; iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
  · have hz : t.val ≠ 0 := fun h => h0 (by rw [h])
    by_cases h15 : t.val % 16 = 15
    · rw [show (dat V c).leavesExact 3 t = owns (c : Thread nD τ) (st0_3 t) fullShare ((dat V c).after 3 t) from by
        unfold Dat.leavesExact; rw [idle3_false t (Or.inr h15)], after_3]
      rw [accAt_pos V c t.val t.isLt hz]
      unfold stepAt; rw [if_neg h0, if_pos h15]
      dsimp only
      simp only [before_2 V c t h0, before_3' V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_last c (grid0.coords t) _ _ _ _ _ _ _ _ _ _ (fun h => h0 ((hcond1 t).mp h)) ((hcond2 t).mpr h15) (iblk V c 0 t) (iblk V c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · rw [Dat.leavesExact_idle (dat V c) 3 t ((idle3 t).mpr ⟨h0, h15⟩) (flush3_false t h15)]
      rw [accAt_pos V c t.val t.isLt hz]
      unfold stepAt; rw [if_neg h0, if_neg h15]
      dsimp only
      simp only [before_2 V c t h0]
      rw [PhiS_castSucc V c t, PhiS_pos V c _ _ hz]
      iintro ⟨⟨⟨HS, Hoth⟩, Hg⟩, Ho, ⟨%d0, H0⟩, ⟨%d1, H1⟩, ⟨%d2, H2⟩, H3⟩
      iapply (run_mid c (grid0.coords t) _ _ _ _ _ _ _ _ _ _ (fun h => h0 ((hcond1 t).mp h)) (fun h => h15 ((hcond2 t).mp h)) (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA0_eq]
  iintro ⟨⟨HS, Hoth⟩, Hg⟩
  isplitl [HS Hoth]
  · isplitl [HS]; · iexists _; iexact HS
    iexact Hoth
  iexact Hg

end Cert.Kernel.Reg0

end
-- ==== Proof.WordBody1.lean ====
/-
  The bit-rate kernel's body at one grid point, as a triple per control case: the one-element accumulator block
  ends at what it held (zero, at the first point, where it is reset first) plus the sum of the logarithms of the
  point's 256 x 1024 slab.
-/
import proofs.«154242_j11184094838809_2_alg».proof.Proof.Gen.Kernel.Launch
import proofs.«154242_j11184094838809_2_alg».proof.Proof.Gen.Kernel.Skeleton
import proofs.«154242_j11184094838809_2_alg».proof.Proof.Gen.Kernel.Points
import proofs.«154242_j11184094838809_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The body's one branch condition, from the grid coordinate: whether this is the first point. -/
abbrev isFirst (i : grid1.Coords) : Prop :=
  (Scalar.cmpi .ne (Scalar.extui (Scalar.cmpi .eq (BitVec.ofNat 32 (i 0).val) 0#32)) 0#32) = 1#1

set_option maxHeartbeats 4000000 in
/-- The first point: the accumulator is reset to zero, then the slab's sum is added. -/
theorem run_first (c : Dev nD) (i : grid1.Coords)
    (arg1 : Memref sig .tc .vmem S1x256x1024 .f32) (harg1 : arg1.IsWhole) (arg2 : Memref sig .tc .vmem S1x1 .f32) (harg2 : arg2.IsWhole)
    (hc : isFirst i) (x : Vec F S1x256x1024 .f32) (E : Set ℕ) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k1_pay2 x (k1_pay1 (F := F)))) -∗ K ⟨⟩))
      ⊢ wp frame (wpE (defs₀ (F := F)) Variants.none c none) E (cc1__bpp_kernel i arg1 harg1 arg2 harg2) K := by
  simp only [cc1__bpp_kernel_eq_skeleton]; unfold cc1__bpp_kernel_skel
  unfold owns
  iintro ⟨⟨%f1, %hf1, H1⟩, ⟨%d2, %f2, -, H2⟩, Hk⟩
  obtain rfl := harg1.eq_unread hf1
  sl_exec (disch := exact hc)
  sl_step
  iapply Hk
  isplitl [H1]
  · iexists _; isplitr; · ipureintro; exact harg1.read_unread _
    iexact H1
  iexists _; isplitr
  swap; · iexact H2
  ipureintro
  refine (Cert.LibWholeStore.read_writes_cons_whole (S := S1x1) _ _ Cert.LibWholeStore.zero2 _ _ _).trans ?_
  sl_unfold_words
  simp only [View.readAt_eq_ld, harg1.read_unread, harg2.read_unread,
    View.ld_unit_zero (S := S1x256x1024) Cert.LibWholeStore.zero3, View.ld_unit_zero (S := S1x1) Cert.LibWholeStore.zero2,
    View.readCov_unit_zero (S := S1x1) _ Cert.LibWholeStore.zero2,
    Cert.LibWholeStore.read_writes_cons_whole (S := S1x1) _ _ Cert.LibWholeStore.zero2]

set_option maxHeartbeats 4000000 in
/-- A later point: the slab's sum is added to what the accumulator held. -/
theorem run_later (c : Dev nD) (i : grid1.Coords)
    (arg1 : Memref sig .tc .vmem S1x256x1024 .f32) (harg1 : arg1.IsWhole) (arg2 : Memref sig .tc .vmem S1x1 .f32) (harg2 : arg2.IsWhole)
    (hc : ¬ isFirst i) (x : Vec F S1x256x1024 .f32) (a0 : Vec F S1x1 .f32) (E : Set ℕ) (K : PUnit → sProp 𝕄) :
    iprop(owns (c : Thread nD τ) arg1 fullShare x ∗ owns (c : Thread nD τ) arg2 fullShare a0
        ∗ (iprop(owns (c : Thread nD τ) arg1 fullShare x ∗ owns (c : Thread nD τ) arg2 fullShare (k1_pay2 x a0)) -∗ K ⟨⟩))
      ⊢ wp frame (wpE (defs₀ (F := F)) Variants.none c none) E (cc1__bpp_kernel i arg1 harg1 arg2 harg2) K := by
  simp only [cc1__bpp_kernel_eq_skeleton]; unfold cc1__bpp_kernel_skel
  unfold owns
  iintro ⟨⟨%f1, %hf1, H1⟩, ⟨%f2, %hf2, H2⟩, Hk⟩
  obtain rfl := harg1.eq_unread hf1; obtain rfl := harg2.eq_unread hf2
  sl_exec (disch := exact hc)
  sl_step
  iapply Hk
  isplitl [H1]
  · iexists _; isplitr; · ipureintro; exact harg1.read_unread _
    iexact H1
  iexists _; isplitr
  swap; · iexact H2
  ipureintro
  refine (Cert.LibWholeStore.read_writes_cons_whole (S := S1x1) _ _ Cert.LibWholeStore.zero2 _ _ _).trans ?_
  sl_unfold_words
  simp only [View.readAt_eq_ld, harg1.read_unread, harg2.read_unread,
    View.ld_unit_zero (S := S1x256x1024) Cert.LibWholeStore.zero3, View.ld_unit_zero (S := S1x1) Cert.LibWholeStore.zero2,
    View.readCov_unit_zero (S := S1x1) _ Cert.LibWholeStore.zero2,
    Cert.LibWholeStore.read_writes_cons_whole (S := S1x1) _ _ Cert.LibWholeStore.zero2]

end Cert.Kernel.Body1

end
-- ==== Proof.WordReg1.lean ====
/-
  The bit-rate region's proof data and body obligation. Its one-element output block is an accumulator over the
  eight grid points: after point k it holds the sum over the slabs 0..k of the slab's sum of logarithms (each
  added to what the block held, zero at the first point); it is written back once, after the last point.
-/
import proofs.«154242_j11184094838809_2_alg».proof.Proof.WordBody1

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.Kernel.Body1

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator block after point k. -/
def accAt (c : Dev nD) : (k : ℕ) → k < cfg1.N → Vec F S1x1 .f32
  | 0, h => k1_pay2 (iblk V c 0 ⟨0, h⟩) (k1_pay1 (F := F))
  | k + 1, h => k1_pay2 (iblk V c 0 ⟨k + 1, h⟩) (accAt c k (Nat.lt_of_succ_lt h))

theorem accAt_zero (c : Dev nD) (k : ℕ) (h : k < cfg1.N) (hz : k = 0) :
    accAt V c k h = k1_pay2 (iblk V c 0 ⟨k, h⟩) (k1_pay1 (F := F)) := by subst hz; rfl

theorem accAt_pos (c : Dev nD) (k : ℕ) (h : k < cfg1.N) (hz : k ≠ 0) :
    accAt V c k h = k1_pay2 (iblk V c 0 ⟨k, h⟩) (accAt V c (k - 1) (Nat.lt_of_le_of_lt (Nat.sub_le _ _) h)) := by
  cases k with
  | zero => exact absurd rfl hz
  | succ k => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => accAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = accAt V c t.val t.isLt := by dsimp only [dat]

theorem hfirst : ∀ t : Fin cfg1.N, isFirst (grid1.coords t) ↔ t.val = 0 :=
  (by decide +kernel : ∀ t : Fin grid1.N, isFirst (grid1.coords t) ↔ t.val = 0)

theorem flush1_false (t : Fin cfg1.N) (h : t.val % 8 ≠ 7) : (cfg1.win 1).flush t = false := by
  cases hf : (cfg1.win 1).flush t with
  | false => rfl
  | true => exact absurd ((flush1_1 t).mp hf) h

/-- The slab: fetched at every point. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The accumulator after the first point: what the point before left. -/
theorem before_1 (c : Dev nD) (t : Fin cfg1.N) (hz : t.val ≠ 0) (d) :
    (dat V c).before 1 t d = accAt V c (t.val - 1) (Nat.lt_of_le_of_lt (Nat.sub_le _ _) t.isLt) := by
  have hN : t.val < 8 := lt_of_lt_of_eq t.isLt (show cfg1.N = 8 from N_1)
  rw [(dat V c).before_out_kept 1 rfl t hz (flush1_false ⟨t.val - 1, _⟩ (by show (t.val - 1) % 8 ≠ 7; omega)) (fun _ => rfl) (fun _ _ => rfl) d,
    after_1]

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

def bodyPost (c : Dev nD) (t : Fin cfg1.N) : sProp 𝕄 :=
  iprop((dat V c).Φ t.succ ∗ (dat V c).owesAt () t.succ
    ∗ (dat V c).leavesExact 0 t ∗ (dat V c).leavesExact 1 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).owesAt () t.succ = (dat V c).owesAt () t.castSucc from rfl]
  rw [show (dat V c).Φ t.succ = (dat V c).Φ t.castSucc from rfl]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  by_cases hz : t.val = 0
  · rw [accAt_zero V c t.val t.isLt hz]
    iintro ⟨HΦ, Ho, ⟨%d0, H0⟩, ⟨%d1, H1⟩⟩
    iapply (run_first c (grid1.coords t) _ _ _ _ ((hfirst t).mpr hz) (iblk V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [accAt_pos V c t.val t.isLt hz]
    simp only [before_1 V c t hz]
    iintro ⟨HΦ, Ho, ⟨%d0, H0⟩, ⟨%d1, H1⟩⟩
    iapply (run_later c (grid1.coords t) _ _ _ _ (fun h => hz ((hfirst t).mp h)) (iblk V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation (c : Dev nD) : BodyObligation (dat (F := F) V c) (defs₀ (F := F)) Variants.none () Set.univ := fun t => by
  rw [bigSep_W1, bigSep_W1]
  exact sound_body V c t

end Cert.Kernel.Reg1

end
-- ==== Proof.WordRun.lean ====
/-
  The run of the whole program: the chamfer region, the host lines that turn its two accumulator arrays into the
  reconstruction loss, the bit-rate region, and the host lines after it (the bit-rate loss, the classification loss,
  their sum). Every weakly fair execution terminates, and at the end every buffer that is not a kernel's own holds
  what the fold below computes from the launch memory: a region's arrays at what its write-backs leave, a host
  line's result at the line's function of its operands.
-/
import proofs.«154242_j11184094838809_2_alg».proof.Proof.WordObl0
import proofs.«154242_j11184094838809_2_alg».proof.Proof.WordReg1
import proofs.«154242_j11184094838809_2_alg».proof.Proof.Gen.Kernel.Regions
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The buffers' contents at each boundary of @main -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the chamfer region: its arrays at what its write-backs leave. -/
def W1 (c : Dev nD) : Valuation τ sig (Elt F) :=
  Pipeline.withArrays spec0 c (W0 m c) fun w => (Reg0.dat (V0 m) c).arrAt w cfg0.N
theorem W1_arr (c : Dev nD) (w : Fin cfg0.W) :
    W1 m c (Proc.devRef .tc (Pipeline.arrRef spec0 w)) = (Reg0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Reg0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host lines between the regions. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the bit-rate region. -/
def W3 (c : Dev nD) : Valuation τ sig (Elt F) :=
  Pipeline.withArrays spec1 c (W2 m c) fun w => (Reg1.dat (V2 m) c).arrAt w cfg1.N
theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Reg1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After each of the four stretches of host lines that follow. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Reg0.dat (V0 m) c
  | ⟨1, _⟩ => fun c => Reg1.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at its entry contents, left with its arrays
    at what its write-backs leave and every other buffer as entered; the generator register rides through the
    invariant; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (V0 m) c)
    unfold Pipeline.ΦA
    iintro ⟨Hp, -, Hr⟩
    isplitl [Hr]; · iexact Hr
    iexact Hp
  hout c := by
    rw [Pipeline.ownSems0_none]
    refine (Reg0.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its arrays
    at what its write-backs leave and every other buffer as entered; the generator register rides through the
    invariant; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)) ]

set_option backward.isDefEq.respectTransparency.types false in
/-- Every weakly fair execution of @main terminates, and every final memory holds each buffer that is no kernel's
    own at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Run

end
-- ==== Proof.WordArgs.lean ====
/-
  The argument arrays at the run's last boundary are the launch's: no host line writes one, and a region that stages
  one as an input window leaves it as it found it.
-/
import proofs.«154242_j11184094838809_2_alg».proof.Proof.WordRun

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

theorem tailKeeps (c : Dev nD) (r : Ref sig .tc) (h3 : r ∉ hostOps2_3_W) (h22 : r ∉ hostOps2_2_W) (h21 : r ∉ hostOps2_1_W)
    (h2 : r ∉ hostOps2_W) : W7 m c (Proc.devRef .tc r) = W3 m c (Proc.devRef .tc r) :=
  (StableHlo.after_of_writes_sub hostOps2_3 _ hostOps2_3_writes h3).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2)

theorem W1_arg0 (c : Dev nD) : W1 m c (Proc.devRef .tc main_arg0) = m ((c : Thread nD τ).loc main_arg0) :=
  (W1_arr m c 0).trans (((Reg0.dat (V0 m) c).arrAt_in 0 rfl _).trans (Reg0.A_eq (V0 m) c 0))
theorem W1_arg1 (c : Dev nD) : W1 m c (Proc.devRef .tc main_arg1) = m ((c : Thread nD τ).loc main_arg1) :=
  (W1_arr m c 1).trans (((Reg0.dat (V0 m) c).arrAt_in 1 rfl _).trans (Reg0.A_eq (V0 m) c 1))

theorem W7_arg0 (c : Dev nD) : W7 m c (Proc.devRef .tc main_arg0) = m ((c : Thread nD τ).loc main_arg0) :=
  (tailKeeps m c main_arg0 (by decide) (by decide) (by decide) (by decide)).trans <|
  (W3_of_ne m c main_arg0 (by decide)).trans <|
  (StableHlo.after_of_writes_sub hostOps1 _ hostOps1_writes (by decide)).trans (W1_arg0 m c)
theorem W7_arg1 (c : Dev nD) : W7 m c (Proc.devRef .tc main_arg1) = m ((c : Thread nD τ).loc main_arg1) :=
  (tailKeeps m c main_arg1 (by decide) (by decide) (by decide) (by decide)).trans <|
  (W3_of_ne m c main_arg1 (by decide)).trans <|
  (StableHlo.after_of_writes_sub hostOps1 _ hostOps1_writes (by decide)).trans (W1_arg1 m c)
theorem W7_arg2 (c : Dev nD) : W7 m c (Proc.devRef .tc main_arg2) = m ((c : Thread nD τ).loc main_arg2) :=
  (tailKeeps m c main_arg2 (by decide) (by decide) (by decide) (by decide)).trans <|
  (W3_of_ne m c main_arg2 (by decide)).trans <|
  (StableHlo.after_of_writes_sub hostOps1 _ hostOps1_writes (by decide)).trans (W1_of_ne m c main_arg2 (by decide))
theorem W7_arg3 (c : Dev nD) : W7 m c (Proc.devRef .tc main_arg3) = m ((c : Thread nD τ).loc main_arg3) :=
  (tailKeeps m c main_arg3 (by decide) (by decide) (by decide) (by decide)).trans <|
  (W3_of_ne m c main_arg3 (by decide)).trans <|
  (StableHlo.after_of_writes_sub hostOps1 _ hostOps1_writes (by decide)).trans (W1_of_ne m c main_arg3 (by decide))
theorem W7_arg4 (c : Dev nD) : W7 m c (Proc.devRef .tc main_arg4) = m ((c : Thread nD τ).loc main_arg4) :=
  (tailKeeps m c main_arg4 (by decide) (by decide) (by decide) (by decide)).trans <|
  (W3_arr m c 0).trans <| ((Reg1.dat (V2 m) c).arrAt_in 0 rfl _).trans <| (Reg1.A_eq (V2 m) c 0).trans <|
  (StableHlo.after_of_writes_sub hostOps1 _ hostOps1_writes (by decide)).trans (W1_of_ne m c main_arg4 (by decide))

/-- The frame: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_arg0 m c),
      (h c _ (mem_uc main_arg1 (by decide))).trans (W7_arg1 m c),
      (h c _ (mem_uc main_arg2 (by decide))).trans (W7_arg2 m c),
      (h c _ (mem_uc main_arg3 (by decide))).trans (W7_arg3 m c),
      (h c _ (mem_uc main_arg4 (by decide))).trans (W7_arg4 m c)⟩) (run_all m ρ)

end Cert.Kernel.Run

end
-- ==== Proof.ArrVal.lean ====
/-
  What the regions' output arrays hold after the run, read off the blocks written back.

  A cloud's accumulator block is written back once, after the cloud's last tile: block n of each accumulator array is
  what position 16 n + 15 left. The bit-rate accumulator is written back after the last point.
-/
import proofs.«154242_j11184094838809_2_alg».proof.Proof.Obl0
import proofs.«154242_j11184094838809_2_alg».proof.Proof.Reg1
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx

variable (V : (c : Dev nD) → (b : Ref sig .tc) → Buf (Elt F) ((c : Thread nD τ).loc b))

theorem accAt_congr (c : Dev nD) {k k' : ℕ} (h : k < cfg0.N) (h' : k' < cfg0.N) (e : k = k') :
    Reg0.accAt V c k h = Reg0.accAt V c k' h' := by subst e; rfl

/-- Where the accumulator windows' blocks lie: block index (cloud, 0, 0). -/
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)

theorem lastPos (i : S8x1x128.Idx) : 16 * (i 0).val + 15 < cfg0.N := by
  have h : (i 0).val < 8 := (i 0).isLt
  have hN : cfg0.N = 128 := N_0
  omega

/-- The lane of an index of an accumulator array, as an index of a block. -/
abbrev lane (i : S8x1x128.Idx) : S1x1x128.Idx := ix3 (0 : Fin 1) (0 : Fin 1) (⟨(i 2).val, (i 2).isLt⟩ : Fin 128)

/-- The first accumulator array after the region. -/
def GX (c : Dev nD) : S8x1x128.Idx → Elt F .f32 := fun i => (Reg0.accAt V c (16 * (i 0).val + 15) (lastPos i)).1 (lane i)
/-- The second accumulator array after the region. -/
def GY (c : Dev nD) : S8x1x128.Idx → Elt F .f32 := fun i => (Reg0.accAt V c (16 * (i 0).val + 15) (lastPos i)).2.1 (lane i)

theorem emb2 (t : Fin cfg0.N) (h15 : t.val % 16 = 15) (j : S1x1x128.Idx) :
    16 * ((((cfg0.win 2).blk t).view.emb j) 0).val + 15 = t.val ∧ lane (((cfg0.win 2).blk t).view.emb j) = j := by
  obtain ⟨e0, e1, e2⟩ := idx2 t
  have hj0 : (j 0).val < 1 := (j 0).isLt
  have hj1 : (j 1).val < 1 := (j 1).isLt
  have h0 : ((((cfg0.win 2).blk t).view.emb j) 0).val = win0_2.index t (0 : Fin 3) * 1 + 1 * (j 0).val := rfl
  have h2 : ((((cfg0.win 2).blk t).view.emb j) 2).val = win0_2.index t (2 : Fin 3) * 128 + 1 * (j 2).val := rfl
  refine ⟨by omega, ?_⟩
  funext a
  match a with
  | ⟨0, _⟩ => exact Fin.ext (by show 0 = (j 0).val; omega)
  | ⟨1, _⟩ => exact Fin.ext (by show 0 = (j 1).val; omega)
  | ⟨2, _⟩ => exact Fin.ext (by show ((((cfg0.win 2).blk t).view.emb j) 2).val = (j 2).val; omega)

theorem emb3 (t : Fin cfg0.N) (h15 : t.val % 16 = 15) (j : S1x1x128.Idx) :
    16 * ((((cfg0.win 3).blk t).view.emb j) 0).val + 15 = t.val ∧ lane (((cfg0.win 3).blk t).view.emb j) = j := by
  obtain ⟨e0, e1, e2⟩ := idx3 t
  have hj0 : (j 0).val < 1 := (j 0).isLt
  have hj1 : (j 1).val < 1 := (j 1).isLt
  have h0 : ((((cfg0.win 3).blk t).view.emb j) 0).val = win0_3.index t (0 : Fin 3) * 1 + 1 * (j 0).val := rfl
  have h2 : ((((cfg0.win 3).blk t).view.emb j) 2).val = win0_3.index t (2 : Fin 3) * 128 + 1 * (j 2).val := rfl
  refine ⟨by omega, ?_⟩
  funext a
  match a with
  | ⟨0, _⟩ => exact Fin.ext (by show 0 = (j 0).val; omega)
  | ⟨1, _⟩ => exact Fin.ext (by show 0 = (j 1).val; omega)
  | ⟨2, _⟩ => exact Fin.ext (by show ((((cfg0.win 3).blk t).view.emb j) 2).val = (j 2).val; omega)

/-- What a cloud's last point writes back is the cloud's block of the array. -/
theorem flushedX (c : Dev nD) (t : Fin cfg0.N) (h15 : t.val % 16 = 15) :
    (Reg0.dat V c).flushed 2 t = ((cfg0.win 2).blk t).view.read (Elt F) (GX V c) := by
  show (cfg0.win 2).cut (grid0.coords t) ((Reg0.dat V c).after 2 t) = _
  rw [Reg0.after_2]
  funext j
  show (Reg0.accAt V c t.val t.isLt).1 j = GX V c (((cfg0.win 2).blk t).view.emb j)
  obtain ⟨hk, hl⟩ := emb2 t h15 j
  unfold GX
  rw [hl, accAt_congr V c (lastPos _) t.isLt hk]

theorem flushedY (c : Dev nD) (t : Fin cfg0.N) (h15 : t.val % 16 = 15) :
    (Reg0.dat V c).flushed 3 t = ((cfg0.win 3).blk t).view.read (Elt F) (GY V c) := by
  show (cfg0.win 3).cut (grid0.coords t) ((Reg0.dat V c).after 3 t) = _
  rw [Reg0.after_3]
  funext j
  show (Reg0.accAt V c t.val t.isLt).2.1 j = GY V c (((cfg0.win 3).blk t).view.emb j)
  obtain ⟨hk, hl⟩ := emb3 t h15 j
  unfold GY
  rw [hl, accAt_congr V c (lastPos _) t.isLt hk]

theorem mem_blk2 (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

/-- Every index of an accumulator array is in the block its cloud's last point writes back. -/
theorem coverX (i : S8x1x128.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 128 := (i 2).isLt
  refine ⟨⟨16 * (i 0).val + 15, lastPos i⟩, (flush0_2 _).mpr (by show (16 * (i 0).val + 15) % 16 = 15; omega), ?_⟩
  rw [mem_blk2]
  obtain ⟨e0, e1, e2⟩ := idx2 ⟨16 * (i 0).val + 15, lastPos i⟩
  have e0' : win0_2.index ⟨16 * (i 0).val + 15, lastPos i⟩ (0 : Fin 3) = (i 0).val := by rw [e0]; show (16 * (i 0).val + 15) / 16 = _; omega
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 128 ≤ (i 2).val ∧ (i 2).val < win0_2.index _ (2 : Fin 3) * 128 + 128; omega
theorem coverY (i : S8x1x128.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 128 := (i 2).isLt
  refine ⟨⟨16 * (i 0).val + 15, lastPos i⟩, (flush0_3 _).mpr (by show (16 * (i 0).val + 15) % 16 = 15; omega), ?_⟩
  rw [mem_blk3]
  obtain ⟨e0, e1, e2⟩ := idx3 ⟨16 * (i 0).val + 15, lastPos i⟩
  have e0' : win0_3.index ⟨16 * (i 0).val + 15, lastPos i⟩ (0 : Fin 3) = (i 0).val := by rw [e0]; show (16 * (i 0).val + 15) / 16 = _; omega
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 128 ≤ (i 2).val ∧ (i 2).val < win0_3.index _ (2 : Fin 3) * 128 + 128; omega

/-- The accumulator arrays after the region. -/
theorem finalX (c : Dev nD) : (Reg0.dat V c).arrAt 2 cfg0.N = GX V c :=
  (Reg0.dat V c).arrAt_eq_of_cover 2 (GX V c) (fun t hf => flushedX V c t ((flush0_2 t).mp hf)) coverX
theorem finalY (c : Dev nD) : (Reg0.dat V c).arrAt 3 cfg0.N = GY V c :=
  (Reg0.dat V c).arrAt_eq_of_cover 3 (GY V c) (fun t hf => flushedY V c t ((flush0_3 t).mp hf)) coverY

/-! ## The bit-rate accumulator -/

theorem lastPos1 : 7 < cfg1.N := by have hN : cfg1.N = 8 := N_1; omega

theorem idxB : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

theorem accAt1_congr (c : Dev nD) {k k' : ℕ} (h : k < cfg1.N) (h' : k' < cfg1.N) (e : k = k') :
    Reg1.accAt V c k h = Reg1.accAt V c k' h' := by subst e; rfl

theorem flushedB (c : Dev nD) (t : Fin cfg1.N) (h7 : t.val % 8 = 7) :
    (Reg1.dat V c).flushed 1 t = ((cfg1.win 1).blk t).view.read (Elt F) (Reg1.accAt V c 7 lastPos1) := by
  show (cfg1.win 1).cut (grid1.coords t) ((Reg1.dat V c).after 1 t) = _
  rw [Reg1.after_1]
  funext j
  show Reg1.accAt V c t.val t.isLt j = Reg1.accAt V c 7 lastPos1 (((cfg1.win 1).blk t).view.emb j)
  obtain ⟨e0, e1⟩ := idxB t
  have hN : t.val < 8 := lt_of_lt_of_eq t.isLt (show cfg1.N = 8 from N_1)
  have hj : ((cfg1.win 1).blk t).view.emb j = j := by
    funext a
    match a with
    | ⟨0, _⟩ => exact Fin.ext (by show win1_1.index t (0 : Fin 2) * 1 + 1 * (j 0).val = (j 0).val; omega)
    | ⟨1, _⟩ => exact Fin.ext (by show win1_1.index t (1 : Fin 2) * 1 + 1 * (j 1).val = (j 1).val; omega)
  rw [hj, accAt1_congr V c t.isLt lastPos1 (by omega)]

theorem mem_blkB (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v14).slice (win1_1.rect t)).set ↔ _
  rw [View.set_slice_whole, Rect.mem_set_unit]
  exact Iff.rfl

theorem coverB (i : S1x1.Idx) : ∃ t : Fin cfg1.N, (cfg1.win 1).flush t = true ∧ i ∈ ((cfg1.win 1).blk t).view.set := by
  have h0 : (i 0).val < 1 := (i 0).isLt
  have h1 : (i 1).val < 1 := (i 1).isLt
  refine ⟨⟨7, lastPos1⟩, (flush1_1 _).mpr (by decide), ?_⟩
  rw [mem_blkB]
  obtain ⟨e0, e1⟩ := idxB ⟨7, lastPos1⟩
  intro a
  match a with
  | ⟨0, _⟩ => show win1_1.index _ (0 : Fin 2) * 1 ≤ (i 0).val ∧ (i 0).val < win1_1.index _ (0 : Fin 2) * 1 + 1; omega
  | ⟨1, _⟩ => show win1_1.index _ (1 : Fin 2) * 1 ≤ (i 1).val ∧ (i 1).val < win1_1.index _ (1 : Fin 2) * 1 + 1; omega

theorem finalB (c : Dev nD) : (Reg1.dat V c).arrAt 1 cfg1.N = Reg1.accAt V c 7 lastPos1 :=
  (Reg1.dat V c).arrAt_eq_of_cover 1 (Reg1.accAt V c 7 lastPos1) (fun t hf => flushedB V c t ((flush1_1 t).mp hf)) coverB

end Cert.KernelIdeal.Arr

end
-- ==== Proof.LibRank3Read.lean ====
/-
  Layout operations and single-axis reductions of rank-3 arrays, read at an index written by coordinates.

  A row-wise kernel that keeps a block `[a, b, c]` meets: a per-row vector kept with a middle unit axis (`[a, c]` cast to
  `[a, 1, c]`) and spread over the middle axis (`[a, 1, c]` to `[a, b, c]`); a matrix kept with a trailing unit axis
  (`[a, b]` cast to `[a, b, 1]`) and spread over the last axis (`[a, b, 1]` to `[a, b, c]`); the block's sums along its
  last and along its middle axis; the block itself as a cast of `[a, 1, b, c]`; and a row's maximum taken from the
  word for minus infinity. In every cast the row-major position is unchanged; a broadcast reads the unit coordinate `0`; a sum
  or maximum over one axis ranges over that axis's coordinate with the others fixed.
-/
import Idealize.ShloMosaic.PureOps.Ideal.Laws
import Idealize.ShloMosaic.Lib.Pipeline.Value
import Idealize.ShloMosaic.Lib.ValueIdx

noncomputable section

open scoped BigOperators

namespace Idealize.ShloMosaic.Rank3Read

open Idealize.ShloMosaic Idealize.ShloMosaic.ValueIdx

variable {α : Type}

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    have hu : u.val = 0 := by omega
    rw [Shape.rowMajor_val_three, Shape.rowMajor_val_two]
    show p.val * c + r.val = (p.val * 1 + u.val) * c + r.val
    rw [hu, Nat.mul_one, Nat.add_zero])

/-- `[a, 1, c]` spread to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    have hu : u.val = 0 := by omega
    rw [Shape.rowMajor_val_three, Shape.rowMajor_val_two]
    show p.val * b + q.val = (p.val * b + q.val) * 1 + u.val
    rw [hu, Nat.mul_one, Nat.add_zero])

/-- `[a, b, 1]` spread to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

/-- `[a, 1, b, c]` cast to `[a, b, c]` reads, at `(p, q, r)`, the operand at `(p, 0, q, r)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h (ix3 p q r) (ix4 p (0 : Fin 1) q r) (by
    rw [Shape.rowMajor_val_four, Shape.rowMajor_val_three]
    show ((p.val * 1 + 0) * b + q.val) * c + r.val = (p.val * b + q.val) * c + r.val
    rw [Nat.mul_one, Nat.add_zero])

/-- The sum of an `[a, b, c]` array along its LAST axis, from the zero accumulator, read at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src ?_
  funext d
  match d with
  | ⟨0, _⟩ => rfl
  | ⟨1, _⟩ => rfl
  | ⟨2, _⟩ => rfl

/-- The sum of an `[a, b, c]` array along its MIDDLE axis, from the zero accumulator, read at `(p, r)`. -/
theorem sumMiddle_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = 0x00000000#32) (p : Fin a) (r : Fin c) :
    multiReduction .add [1] ⟨2, ![a, c]⟩ src 0x00000000#32 h hφ hacc (ix2 p r) = ∑ k : Fin b, src (ix3 p k r) := by
  refine (Ideal.multiReduction_add_single src 0x00000000#32 h hφ hacc (ix2 p r)).trans ?_
  refine Finset.sum_congr rfl fun k _ => congrArg src ?_
  funext d
  match d with
  | ⟨0, _⟩ => rfl
  | ⟨1, _⟩ => rfl
  | ⟨2, _⟩ => rfl

/-- The maximum of a row of an `[a, b]` array, taken from the word for minus infinity, read at row `p`: the fold of
    `max` from that word's value over the row's entries (the word is not evaluated). -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun j => src (ix2 p j)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine congrArg (fun f => Finset.fold max (Ideal.ofBits .f32 0xFF800000#32) f (Finset.univ : Finset (Fin b))) (funext fun j => congrArg src ?_)
  funext d
  match d with
  | ⟨0, _⟩ => rfl
  | ⟨1, _⟩ => rfl

end Idealize.ShloMosaic.Rank3Read

end
-- ==== Proof.LibChannelRead.lean ====
/-
  One channel of a rank-three block read at coordinates. A block of shape [A, B, C] keeps C channels per cell
  (p, q). Loading the unit-stride rectangle of sizes [A, B, 1] at offsets [0, 0, c] takes channel c of every cell,
  and dropping the trailing unit axis by a shape cast gives an [A, B] array: its entry (p, q) is the block's
  entry (p, q, c). The row-major position of (p, q, 0) in [A, B, 1] is that of (p, q) in [A, B], which is all
  the cast needs.
-/
import Idealize.ShloMosaic.Lib.Pipeline.Value
import Idealize.ShloMosaic.Lib.Pipeline.FrameBody
import Idealize.ShloMosaic.Lib.ValueIdx

namespace Idealize.ShloMosaic.ChannelRead

open Idealize.ShloMosaic Idealize.ShloMosaic.ValueIdx

variable {α : Type}

/-- An [A, B, 1] array with its trailing unit axis dropped reads, at (p, q), the operand at (p, q, 0). -/
theorem shapeCast_ab1_ab_apply {A B : ℕ} (x : (⟨3, ![A, B, 1]⟩ : Shape).Idx → α)
    (h : (⟨3, ![A, B, 1]⟩ : Shape).ShapeCasts ⟨2, ![A, B]⟩) (p : Fin A) (q : Fin B) :
    shapeCast ⟨2, ![A, B]⟩ x h (ix2 p q) = x (ix3 p q (0 : Fin 1)) :=
  shapeCast_apply x h _ _ (by
    rw [Shape.rowMajor_val_three, Shape.rowMajor_val_two]
    show (p.val * B + q.val) * 1 + 0 = p.val * B + q.val
    rw [Nat.mul_one, Nat.add_zero])

/-- Channel c of an [A, B, C] block, loaded as an [A, B, 1] rectangle, reads at (p, q, u) the block at (p, q, c). -/
theorem ld_channel_apply {Val : EltTy → Type} {e : EltTy} {A B C : ℕ} (X : (⟨3, ![A, B, C]⟩ : Shape).Idx → Val e) (c : ℕ)
    (inb : ∀ d, (![0, 0, c] : Fin 3 → ℕ) d + (![A, B, 1] : Fin 3 → ℕ) d ≤ (⟨3, ![A, B, C]⟩ : Shape).size d)
    (p : Fin A) (q : Fin B) (u : Fin 1) :
    View.ld X (Rect.unit (s := ⟨3, ![A, B, C]⟩) ![0, 0, c] ![A, B, 1] inb) (ix3 p q u)
      = X (ix3 p q ⟨c, Nat.lt_of_succ_le (inb 2)⟩) := by
  show X ((Rect.unit (s := ⟨3, ![A, B, C]⟩) ![0, 0, c] ![A, B, 1] inb).idx (ix3 p q u)) = _
  refine congrArg X (funext fun d => Fin.ext ?_)
  match d with
  | ⟨0, _⟩ => show 0 + 1 * p.val = p.val; rw [Nat.one_mul, Nat.zero_add]
  | ⟨1, _⟩ => show 0 + 1 * q.val = q.val; rw [Nat.one_mul, Nat.zero_add]
  | ⟨2, _⟩ => show c + 1 * u.val = c; have := u.isLt; omega

/-- The two together: channel c of the block as an [A, B] array, at (p, q), is the block at (p, q, c). -/
theorem channel_apply {Val : EltTy → Type} {e : EltTy} {A B C : ℕ} (X : (⟨3, ![A, B, C]⟩ : Shape).Idx → Val e) (c : ℕ)
    (inb : ∀ d, (![0, 0, c] : Fin 3 → ℕ) d + (![A, B, 1] : Fin 3 → ℕ) d ≤ (⟨3, ![A, B, C]⟩ : Shape).size d)
    (h : (⟨3, ![A, B, 1]⟩ : Shape).ShapeCasts ⟨2, ![A, B]⟩) (p : Fin A) (q : Fin B) :
    shapeCast ⟨2, ![A, B]⟩ (View.ld X (Rect.unit (s := ⟨3, ![A, B, C]⟩) ![0, 0, c] ![A, B, 1] inb)) h (ix2 p q)
      = X (ix3 p q ⟨c, Nat.lt_of_succ_le (inb 2)⟩) :=
  (shapeCast_ab1_ab_apply _ h p q).trans (ld_channel_apply X c inb p q 0)

end Idealize.ShloMosaic.ChannelRead
-- ==== Proof.LibChannelSlice.lean ====
/-
  One channel of a rank-three vector sliced out, read at an index.

  The unit-stride slice of an [A, B, C] vector at offsets (0, 0, c) with sizes (A, B, 1) (what `v[:, :, c]` of a
  loaded block lowers to before the unit axis is dropped) read at (p, q, u) is the vector at (p, q, c).
-/
import Idealize.ShloMosaic.Lib.Pipeline.Value
import Idealize.ShloMosaic.Lib.ValueIdx

namespace Idealize.ShloMosaic.ChannelSlice

open Idealize.ShloMosaic Idealize.ShloMosaic.ValueIdx

variable {α : Type}

/-- The slice of channel c of an [A, B, C] vector, read at (p, q, u), is the vector at (p, q, c). -/
theorem slice_channel_apply {A B C : ℕ} (c : ℕ) (hc : c < C) (X : (⟨3, ![A, B, C]⟩ : Shape).Idx → α)
    (h : (⟨3, ![A, B, C]⟩ : Shape).Slices ![0, 0, c] ⟨3, ![A, B, 1]⟩) (p : Fin A) (q : Fin B) (u : Fin 1) :
    extractStridedSlice ⟨3, ![A, B, 1]⟩ ![0, 0, c] X h (ix3 p q u) = X (ix3 p q ⟨c, hc⟩) := by
  refine extractStridedSlice_apply ![0, 0, c] X h (ix3 p q u) _ fun d => ?_
  match d with
  | ⟨0, _⟩ => show p.val = 0 + p.val; omega
  | ⟨1, _⟩ => show q.val = 0 + q.val; omega
  | ⟨2, _⟩ => show c = c + u.val; omega

end Idealize.ShloMosaic.ChannelSlice
-- ==== Proof.LibMinReduce.lean ====
/-
  Minima of rows, of columns and of a batch of matrices, read at an index, at the extended reals.

  The float minimum-reduction of an [a, b] array over its second axis, from the pattern of +∞, is at row r the fold of
  min from ⊤ over the b entries (r, j) of that row; over its first axis it is at column n the fold of min from ⊤ over
  the a entries (r, n) of that column. The host's one-operand reduce with a minimum body of an [a, b, c] array, from an
  initial value that denotes +∞, over its last axis is at (p, q) the fold over the entries (p, q, j), and over its middle
  axis it is at (p, r) the fold over the entries (p, j, r). All four land on one `Finset.fold min ⊤`, so a kernel's tiled
  minima and a reference's batched ones are compared entry by entry; `le_fold_min_top` is the universal property of
  that fold (a lower bound of the fold is a lower bound of every entry), and `map_fold_min_top` moves a monotone map
  that fixes ⊤ inside it.
-/
import Idealize.ShloMosaic.PureOps.Ideal.Laws
import Idealize.ShloMosaic.Lib.ValueIdx

noncomputable section

namespace Idealize.ShloMosaic.MinReduce

open Idealize.ShloMosaic Idealize.ShloMosaic.ValueIdx

/-- The f32 pattern of +∞ denotes the top of the extended reals. -/
theorem posInf_f32 : Ideal.ofBits .f32 0x7F800000#32 = ⊤ := by simp [Ideal.ofBits, Ideal.ieee]

/-- A lower bound of a fold of min from ⊤ is a lower bound of every entry, and conversely. -/
theorem le_fold_min_top {ι : Type} (s : Finset ι) (f : ι → EReal) (z : EReal) :
    z ≤ s.fold min ⊤ f ↔ ∀ j ∈ s, z ≤ f j := by
  rw [Finset.le_fold_min]
  exact ⟨fun h => h.2, fun h => ⟨le_top, h⟩⟩

/-- A monotone map that fixes ⊤ moves inside a fold of min from ⊤. -/
theorem map_fold_min_top {ι : Type} (s : Finset ι) (f : ι → EReal) (g : EReal → EReal) (hg : Monotone g) (htop : g ⊤ = ⊤) :
    g (s.fold min ⊤ f) = s.fold min ⊤ (fun j => g (f j)) := by
  have h := Finset.fold_hom (op := min) (op' := min) (b := (⊤ : EReal)) (s := s) (f := f) (m := g) (fun x y => hg.map_min)
  rw [htop] at h
  exact h.symm

/-- The index (r, j) of an [a, b] array is the row index r with the column j inserted on the second axis. -/
theorem lift_row {a b : ℕ} (h : Shape.Reduces ⟨2, ![a, b]⟩ [1] ⟨1, ![a]⟩) (r : Fin a) (j : Fin b) :
    h.lift (ix1 r) j = ix2 r j := by
  funext d
  match d with
  | ⟨0, _⟩ => rfl
  | ⟨1, _⟩ => rfl

/-- The index (r, n) of an [a, b] array is the column index n with the row r inserted on the first axis. -/
theorem lift_col {a b : ℕ} (h : Shape.Reduces ⟨2, ![a, b]⟩ [0] ⟨1, ![b]⟩) (n : Fin b) (r : Fin a) :
    h.lift (ix1 n) r = ix2 r n := by
  funext d
  match d with
  | ⟨0, _⟩ => rfl
  | ⟨1, _⟩ => rfl

/-- The vector unit's minimum-reduction of an [a, b] vector over axis 1 from +∞, read at row r. -/
theorem laneMin_apply {a b : ℕ} (src : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).fold min ⊤ (fun j => src (ix2 r j)) := by
  rw [multiReduction_minimumf_eq_fold]
  refine (h.fold_filter_drop_single _ _ src (ix1 r)).trans ?_
  show (Finset.univ : Finset (Fin b)).fold min (Ideal.ofBits .f32 0x7F800000#32) (src ∘ h.lift (ix1 r)) = _
  rw [posInf_f32]
  exact congrArg (fun f => Finset.fold min ⊤ f (Finset.univ : Finset (Fin b))) (funext fun j => congrArg src (lift_row h r j))

/-- The vector unit's minimum-reduction of an [a, b] vector over axis 0 from +∞, read at column n. -/
theorem colMin_apply {a b : ℕ} (src : FVec Ideal ⟨2, ![a, b]⟩ .f32) (h : Shape.Reduces ⟨2, ![a, b]⟩ [0] ⟨1, ![b]⟩)
    (hφ : FKind.Formats .f32) (hacc : (0x7F800000#32 : BitVec 32) = FKind.minimumf.neutral .f32 hφ) (n : Fin b) :
    multiReduction .minimumf [0] ⟨1, ![b]⟩ src 0x7F800000#32 h hφ hacc (ix1 n)
      = (Finset.univ : Finset (Fin a)).fold min ⊤ (fun r => src (ix2 r n)) := by
  rw [multiReduction_minimumf_eq_fold]
  refine (h.fold_filter_drop_single _ _ src (ix1 n)).trans ?_
  show (Finset.univ : Finset (Fin a)).fold min (Ideal.ofBits .f32 0x7F800000#32) (src ∘ h.lift (ix1 n)) = _
  rw [posInf_f32]
  exact congrArg (fun f => Finset.fold min ⊤ f (Finset.univ : Finset (Fin a))) (funext fun r => congrArg src (lift_col h n r))

/-- The index (p, q, j) is the index (p, q) with j inserted on the last axis. -/
theorem lift_last3 {a b c : ℕ} (h : Shape.Reduces ⟨3, ![a, b, c]⟩ [2] ⟨2, ![a, b]⟩) (p : Fin a) (q : Fin b) (j : Fin c) :
    h.lift (ix2 p q) j = ix3 p q j := by
  funext e
  match e with
  | ⟨0, _⟩ => rfl
  | ⟨1, _⟩ => rfl
  | ⟨2, _⟩ => rfl

/-- The index (p, j, r) is the index (p, r) with j inserted on the middle axis. -/
theorem lift_mid3 {a b c : ℕ} (h : Shape.Reduces ⟨3, ![a, b, c]⟩ [1] ⟨2, ![a, c]⟩) (p : Fin a) (r : Fin c) (j : Fin b) :
    h.lift (ix2 p r) j = ix3 p j r := by
  funext e
  match e with
  | ⟨0, _⟩ => rfl
  | ⟨1, _⟩ => rfl
  | ⟨2, _⟩ => rfl

/-- The host's reduce with a minimum body over the last axis of an [a, b, c] array, from +∞, read at (p, q). -/
theorem hostMin_last3_apply {a b c : ℕ} {u : Shape} (x : (⟨3, ![a, b, c]⟩ : Shape).Idx → Ideal .f32) (init : u.Idx → Ideal .f32)
    (h' : Shape.ReducesTo ⟨3, ![a, b, c]⟩ [2] ⟨2, ![a, b]⟩) (h : Shape.Reduces ⟨3, ![a, b, c]⟩ [2] ⟨2, ![a, b]⟩)
    (hu : 0 < u.numel) (hinit : init (Shape.Idx.first hu) = ⊤) (p : Fin a) (q : Fin b) :
    Host.reduce (FloatOps.minimumf (F := Ideal) (φ := .f32)) x init h' hu (ix2 p q)
      = (Finset.univ : Finset (Fin c)).fold min ⊤ (fun j => x (ix3 p q j)) := by
  refine (Host.reduce_eq_fold_single (FloatOps.minimumf (F := Ideal) (φ := .f32)) x init h' h hu (ix2 p q)).trans ?_
  rw [hinit]
  show (Finset.univ : Finset (Fin c)).fold min ⊤ (x ∘ h.lift (ix2 p q)) = _
  exact congrArg (fun f => Finset.fold min ⊤ f (Finset.univ : Finset (Fin c))) (funext fun j => congrArg x (lift_last3 h p q j))

/-- The host's reduce with a minimum body over the middle axis of an [a, b, c] array, from +∞, read at (p, r). -/
theorem hostMin_mid3_apply {a b c : ℕ} {u : Shape} (x : (⟨3, ![a, b, c]⟩ : Shape).Idx → Ideal .f32) (init : u.Idx → Ideal .f32)
    (h' : Shape.ReducesTo ⟨3, ![a, b, c]⟩ [1] ⟨2, ![a, c]⟩) (h : Shape.Reduces ⟨3, ![a, b, c]⟩ [1] ⟨2, ![a, c]⟩)
    (hu : 0 < u.numel) (hinit : init (Shape.Idx.first hu) = ⊤) (p : Fin a) (r : Fin c) :
    Host.reduce (FloatOps.minimumf (F := Ideal) (φ := .f32)) x init h' hu (ix2 p r)
      = (Finset.univ : Finset (Fin b)).fold min ⊤ (fun j => x (ix3 p j r)) := by
  refine (Host.reduce_eq_fold_single (FloatOps.minimumf (F := Ideal) (φ := .f32)) x init h' h hu (ix2 p r)).trans ?_
  rw [hinit]
  show (Finset.univ : Finset (Fin b)).fold min ⊤ (x ∘ h.lift (ix2 p r)) = _
  exact congrArg (fun f => Finset.fold min ⊤ f (Finset.univ : Finset (Fin b))) (funext fun j => congrArg x (lift_mid3 h p r j))

end Idealize.ShloMosaic.MinReduce

end
-- ==== Proof.LibMin3.lean ====
/-
  The vector unit's minimum-reduction of a rank-three array, read at an index.

  At the extended reals the float minimum-reduction of an [a, b, c] array from the word of +inf, over its last axis
  read at (p, q) and over its middle axis read at (p, r), is the fold of min from the top element over the reduced
  coordinate: what the minimum over the columns, and over the rows, of a tile of pairwise distances lowers to.
-/
import proofs.«154242_j11184094838809_2_alg».proof.Proof.LibMinReduce

namespace Idealize.ShloMosaic.MinReduce3

open Idealize.ShloMosaic Idealize.ShloMosaic.ValueIdx Idealize.ShloMosaic.MinReduce

/-- The minimum-reduction of an [a, b, c] array over its last axis from +inf, read at (p, q). -/
theorem lastMin3_apply {a b c : ℕ} (src : FVec Ideal ⟨3, ![a, b, c]⟩ .f32) (h : Shape.Reduces ⟨3, ![a, b, c]⟩ [2] ⟨2, ![a, b]⟩)
    (hφ : FKind.Formats .f32) (hacc : (0x7F800000#32 : BitVec 32) = FKind.minimumf.neutral .f32 hφ) (p : Fin a) (q : Fin b) :
    multiReduction .minimumf [2] ⟨2, ![a, b]⟩ src 0x7F800000#32 h hφ hacc (ix2 p q)
      = (Finset.univ : Finset (Fin c)).fold min ⊤ (fun j => src (ix3 p q j)) := by
  rw [multiReduction_minimumf_eq_fold]
  refine (h.fold_filter_drop_single _ _ src (ix2 p q)).trans ?_
  show (Finset.univ : Finset (Fin c)).fold min (Ideal.ofBits .f32 0x7F800000#32) (src ∘ h.lift (ix2 p q)) = _
  rw [posInf_f32]
  exact congrArg (fun f => Finset.fold min ⊤ f (Finset.univ : Finset (Fin c))) (funext fun j => congrArg src (lift_last3 h p q j))

/-- The minimum-reduction of an [a, b, c] array over its middle axis from +inf, read at (p, r). -/
theorem midMin3_apply {a b c : ℕ} (src : FVec Ideal ⟨3, ![a, b, c]⟩ .f32) (h : Shape.Reduces ⟨3, ![a, b, c]⟩ [1] ⟨2, ![a, c]⟩)
    (hφ : FKind.Formats .f32) (hacc : (0x7F800000#32 : BitVec 32) = FKind.minimumf.neutral .f32 hφ) (p : Fin a) (r : Fin c) :
    multiReduction .minimumf [1] ⟨2, ![a, c]⟩ src 0x7F800000#32 h hφ hacc (ix2 p r)
      = (Finset.univ : Finset (Fin b)).fold min ⊤ (fun j => src (ix3 p j r)) := by
  rw [multiReduction_minimumf_eq_fold]
  refine (h.fold_filter_drop_single _ _ src (ix2 p r)).trans ?_
  show (Finset.univ : Finset (Fin b)).fold min (Ideal.ofBits .f32 0x7F800000#32) (src ∘ h.lift (ix2 p r)) = _
  rw [posInf_f32]
  exact congrArg (fun f => Finset.fold min ⊤ f (Finset.univ : Finset (Fin b))) (funext fun j => congrArg src (lift_mid3 h p r j))

end Idealize.ShloMosaic.MinReduce3
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibColumn.lean ====
/- A sublane sum read at its one entry: the float add-reduction of an [a, 1] column over its first axis, from the zero
   accumulator, is at the extended reals the plain sum of the column's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibColumn
open Idealize.ShloMosaic Idealize.ShloMosaic.ValueIdx

/-- A sum down an [a, 1] column (a float `multi_reduction <add>` over axis 0 from the zero accumulator) read at its
    one entry, at the extended reals: the sum over the rows `r` of the entries `(r, 0)`. -/
theorem columnSum_apply {a : ℕ} (src : FVec Ideal ⟨2, ![a, 1]⟩ .f32) (h : Shape.Reduces ⟨2, ![a, 1]⟩ [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun r _ => congrArg src ?_
  funext d
  match d with
  | ⟨0, _⟩ => rfl
  | ⟨1, _⟩ => exact Fin.ext (by have := u.isLt; show (u : ℕ) = 0; omega)

end Cert.LibColumn
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.KMath.lean ====
/-
  The kernels' arithmetic on the extended reals, read at an index.

  For a source tile x0 (256 points) and the other cloud x1 (4096 points), both with three coordinates, the tile of
  squared distances is D p q = (|x0 p|^2 + |x1 q|^2) - 2 (x0 p . x1 q), the inner product spelt as three products
  added left to right. The first accumulator gains the sum over p of min over q of D p q; the scratch is lowered, at
  q, by min over p of D p q; the second accumulator gains the sum of the scratch. The bit-rate kernel's accumulator
  gains the sum of the logarithms of its slab.
-/
import proofs.«154242_j11184094838809_2_alg».proof.Proof.Gen.KernelIdeal.Skeleton
import proofs.«154242_j11184094838809_2_alg».proof.Proof.LibRank3Read
import proofs.«154242_j11184094838809_2_alg».proof.Proof.LibChannelRead
import proofs.«154242_j11184094838809_2_alg».proof.Proof.LibChannelSlice
import proofs.«154242_j11184094838809_2_alg».proof.Proof.LibMin3
import proofs.«154242_j11184094838809_2_alg».proof.Proof.LibLane
import proofs.«154242_j11184094838809_2_alg».proof.Proof.LibColumn
import proofs.«154242_j11184094838809_2_alg».proof.Proof.LibIndexRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Idealize.ShloMosaic Idealize.ShloMosaic.ValueIdx
open Idealize.ShloMosaic.Rank3Read Idealize.ShloMosaic.ChannelRead Idealize.ShloMosaic.ChannelSlice
open Idealize.ShloMosaic.MinReduce Idealize.ShloMosaic.MinReduce3 Idealize.ShloMosaic.RowRead

/-- The literal 2.0. -/
abbrev two : EReal := Ideal.ofBits .f32 0x40000000#32

/-- The squared distance between point p of the source tile and point q of the other cloud, as the kernel spells it. -/
def dist (x0 : Vec Ideal S1x256x3 .f32) (x1 : Vec Ideal S1x4096x3 .f32) (p : Fin 256) (q : Fin 4096) : EReal :=
  ((∑ k : Fin 3, x0 (ix3 (0 : Fin 1) p k) * x0 (ix3 (0 : Fin 1) p k)) + (∑ k : Fin 3, x1 (ix3 (0 : Fin 1) q k) * x1 (ix3 (0 : Fin 1) q k)))
    - two * ((x0 (ix3 (0 : Fin 1) p (0 : Fin 3)) * x1 (ix3 (0 : Fin 1) q (0 : Fin 3))
        + x0 (ix3 (0 : Fin 1) p (1 : Fin 3)) * x1 (ix3 (0 : Fin 1) q (1 : Fin 3)))
        + x0 (ix3 (0 : Fin 1) p (2 : Fin 3)) * x1 (ix3 (0 : Fin 1) q (2 : Fin 3)))

/-- The tile of distances at (p, q). -/
theorem tile_apply (x0 : Vec Ideal S1x256x3 .f32) (x1 : Vec Ideal S1x4096x3 .f32) (p : Fin 256) (q : Fin 4096) :
    k0_pay7 (F := Ideal) x0 x1 (ix3 (0 : Fin 1) p q) = dist x0 x1 p q := by
  unfold k0_pay7 dist
  simp only [subf_apply, addf_apply, mulf_apply, broadcast_apply, broadcastTo_ab1_abc_apply, broadcastTo_a1c_abc_apply,
    shapeCast_ab_ab1_apply, shapeCast_ac_a1c_apply, shapeCast_ab1_ab_apply, sumLast_apply,
    slice_channel_apply (C := 3) 0 (by decide), slice_channel_apply (C := 3) 1 (by decide), slice_channel_apply (C := 3) 2 (by decide),
    Ideal.ofBits_def]
  exact congrArg₂ (· - ·) (congrArg₂ (· + ·) (sumLast_apply (mulf x0 x0) _ _ _ (0 : Fin 1) p) (sumLast_apply (mulf x1 x1) _ _ _ (0 : Fin 1) q)) rfl

/-- The first accumulator block after a tile, at lane l. -/
theorem accX_apply (D : FVec Ideal S1x256x4096 .f32) (a : Vec Ideal S1x1x128 .f32) (l : Fin 128) :
    k0_pay1 (F := Ideal) D a (ix3 (0 : Fin 1) (0 : Fin 1) l)
      = a (ix3 (0 : Fin 1) (0 : Fin 1) l) + ∑ p : Fin 256, (Finset.univ : Finset (Fin 4096)).fold min ⊤ (fun q => D (ix3 (0 : Fin 1) p q)) := by
  unfold k0_pay1
  simp only [addf_apply, shapeCast_self, broadcastTo_ab1_abc_apply, shapeCast_ab_ab1_apply, shapeCast_a_a1_apply,
    Cert.LibLane.laneSum_apply, lastMin3_apply]
  refine congrArg (a (ix3 (0 : Fin 1) (0 : Fin 1) l) + ·) ?_
  refine (Cert.LibLane.laneSum_apply _ _ _ _ (0 : Fin 1)).trans ?_
  exact Finset.sum_congr rfl fun p _ => lastMin3_apply D _ _ _ (0 : Fin 1) p

/-- The running column minimum after a tile, at column q. -/
theorem runMin_apply (D : FVec Ideal S1x256x4096 .f32) (s : Vec Ideal S1x4096 .f32) (q : Fin 4096) :
    k0_pay2 (F := Ideal) D s (ix2 (0 : Fin 1) q)
      = min (s (ix2 (0 : Fin 1) q)) ((Finset.univ : Finset (Fin 256)).fold min ⊤ (fun p => D (ix3 (0 : Fin 1) p q))) := by
  unfold k0_pay2
  simp only [shapeCast_self, minimumf_apply, midMin3_apply]
  exact congrArg (min (s (ix2 (0 : Fin 1) q))) (midMin3_apply D _ _ _ (0 : Fin 1) q)

/-- The second accumulator block after the last tile, at lane l. -/
theorem accY_apply (s : Vec Ideal S1x4096 .f32) (b : Vec Ideal S1x1x128 .f32) (l : Fin 128) :
    k0_pay3 (F := Ideal) s b (ix3 (0 : Fin 1) (0 : Fin 1) l)
      = b (ix3 (0 : Fin 1) (0 : Fin 1) l) + ∑ q : Fin 4096, s (ix2 (0 : Fin 1) q) := by
  unfold k0_pay3
  simp only [addf_apply, shapeCast_self, broadcastTo_ab1_abc_apply, shapeCast_ab_ab1_apply, shapeCast_a_a1_apply,
    Cert.LibLane.laneSum_apply]
  exact congrArg (b (ix3 (0 : Fin 1) (0 : Fin 1) l) + ·) (Cert.LibLane.laneSum_apply s _ _ _ (0 : Fin 1))

/-- The reset values: +inf for the running minimum, zero for the two accumulators. -/
theorem resetMin_apply (i : S1x4096.Idx) : k0_pay4 (F := Ideal) i = ⊤ := by
  unfold k0_pay4; simp only [shapeCast_self, broadcast_apply]; exact posInf_f32
theorem resetX_apply (i : S1x1x128.Idx) : k0_pay5 (F := Ideal) i = 0 := by
  unfold k0_pay5; simp only [broadcast_apply]; exact Ideal.ofBits_zero_f32
theorem resetY_apply (i : S1x1x128.Idx) : k0_pay6 (F := Ideal) i = 0 := by
  unfold k0_pay6; simp only [broadcast_apply]; exact Ideal.ofBits_zero_f32

end Cert.KernelIdeal.KVal

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.KSum.lean ====
/-
  The chamfer region's accumulators as sums over a whole cloud.

  Position 16 n + i is tile i of cloud n: its source block is rows 256 i .. 256 i + 255 of cloud n of the first
  argument, its other block all of cloud n of the second. With d n P q the squared distance between point P of the
  first cloud and point q of the second, after the cloud's last tile the first accumulator block holds
  sum over P of min over q of d n P q (a sum over the tiles of the tiles' sums), the scratch at q
  min over P of d n P q (a minimum over the tiles of the tiles' minima), and the second accumulator block the sum
  over q of the scratch.
-/
import proofs.«154242_j11184094838809_2_alg».proof.Proof.ArrVal
import proofs.«154242_j11184094838809_2_alg».proof.Proof.KMath
import proofs.«154242_j11184094838809_2_alg».proof.Proof.LibSumBlocks

set_option maxRecDepth 16384

noncomputable section

namespace Cert.KernelIdeal.KSum

open Idealize.ShloMosaic Idealize.ShloMosaic.TcCoe Idealize.ShloMosaic.ValueIdx
open Idealize.SL Idealize.SL.Sem
open Idealize.ShloMosaic.Pipeline (Dat Cfg Window)

open Cert.KernelIdeal Cert.KernelIdeal.Gen Cert.KernelIdeal.KVal Cert.KernelIdeal.Body0
open Idealize.ShloMosaic.MinReduce

variable (V : (c : Dev nD) → (b : Ref sig .tc) → Buf (Elt Ideal) ((c : Thread nD τ).loc b))

/-- The squared distance between point P of cloud n of x and point q of cloud n of y, as the kernel spells it. -/
def d (x y : S8x4096x3.Idx → EReal) (n : Fin 8) (P q : Fin 4096) : EReal :=
  ((∑ k : Fin 3, x (ix3 n P k) * x (ix3 n P k)) + (∑ k : Fin 3, y (ix3 n q k) * y (ix3 n q k)))
    - two * ((x (ix3 n P (0 : Fin 3)) * y (ix3 n q (0 : Fin 3)) + x (ix3 n P (1 : Fin 3)) * y (ix3 n q (1 : Fin 3)))
        + x (ix3 n P (2 : Fin 3)) * y (ix3 n q (2 : Fin 3)))

/-- The same with the row a natural number (zero past the cloud's end, where nothing reads it). -/
def dN (x y : S8x4096x3.Idx → EReal) (n : Fin 8) (P : ℕ) (q : Fin 4096) : EReal :=
  if h : P < 4096 then d x y n ⟨P, h⟩ q else 0

theorem dN_of_lt (x y : S8x4096x3.Idx → EReal) (n : Fin 8) (P : ℕ) (h : P < 4096) (q : Fin 4096) :
    dN x y n P q = d x y n ⟨P, h⟩ q := dif_pos h

/-- The two argument arrays as the region finds them. -/
abbrev xA (c : Dev nD) : S8x4096x3.Idx → EReal := V c main_arg0
abbrev yA (c : Dev nD) : S8x4096x3.Idx → EReal := V c main_arg1

theorem posLt (n : Fin 8) (i : ℕ) (hi : i < 16) : 16 * n.val + i < cfg0.N := by
  have hN : cfg0.N = 128 := N_0
  have := n.isLt
  omega

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)

/-- The source block of tile i of cloud n is rows 256 i .. of cloud n. -/
theorem xblk_apply (c : Dev nD) (n : Fin 8) (i : ℕ) (hi : i < 16) (p : Fin 256) (k : Fin 3) :
    Reg0.iblk V c 0 ⟨16 * n.val + i, posLt n i hi⟩ (ix3 (0 : Fin 1) p k)
      = xA V c (ix3 n (⟨256 * i + p.val, by have := p.isLt; omega⟩ : Fin 4096) k) := by
  unfold Reg0.iblk
  show V c main_arg0 (((cfg0.win 0).blk ⟨16 * n.val + i, posLt n i hi⟩).view.emb (ix3 (0 : Fin 1) p k)) = _
  refine congrArg (V c main_arg0) (funext fun a => Fin.ext ?_)
  obtain ⟨e0, e1, e2⟩ := idx0 ⟨16 * n.val + i, posLt n i hi⟩
  have e0' : win0_0.index ⟨16 * n.val + i, posLt n i hi⟩ (0 : Fin 3) = n.val := by rw [e0]; show (16 * n.val + i) / 16 = _; omega
  have e1' : win0_0.index ⟨16 * n.val + i, posLt n i hi⟩ (1 : Fin 3) = i := by rw [e1]; show (16 * n.val + i) % 16 = _; omega
  match a with
  | ⟨0, _⟩ => show win0_0.index _ (0 : Fin 3) * 1 + 1 * 0 = n.val; omega
  | ⟨1, _⟩ => show win0_0.index _ (1 : Fin 3) * 256 + 1 * p.val = 256 * i + p.val; omega
  | ⟨2, _⟩ => show win0_0.index _ (2 : Fin 3) * 3 + 1 * k.val = k.val; omega

/-- The other block of any tile of cloud n is cloud n. -/
theorem yblk_apply (c : Dev nD) (n : Fin 8) (i : ℕ) (hi : i < 16) (q : Fin 4096) (k : Fin 3) :
    Reg0.iblk V c 1 ⟨16 * n.val + i, posLt n i hi⟩ (ix3 (0 : Fin 1) q k) = yA V c (ix3 n q k) := by
  unfold Reg0.iblk
  show V c main_arg1 (((cfg0.win 1).blk ⟨16 * n.val + i, posLt n i hi⟩).view.emb (ix3 (0 : Fin 1) q k)) = _
  refine congrArg (V c main_arg1) (funext fun a => Fin.ext ?_)
  obtain ⟨e0, e1, e2⟩ := idx1 ⟨16 * n.val + i, posLt n i hi⟩
  have e0' : win0_1.index ⟨16 * n.val + i, posLt n i hi⟩ (0 : Fin 3) = n.val := by rw [e0]; show (16 * n.val + i) / 16 = _; omega
  match a with
  | ⟨0, _⟩ => show win0_1.index _ (0 : Fin 3) * 1 + 1 * 0 = n.val; omega
  | ⟨1, _⟩ => show win0_1.index _ (1 : Fin 3) * 4096 + 1 * q.val = q.val; omega
  | ⟨2, _⟩ => show win0_1.index _ (2 : Fin 3) * 3 + 1 * k.val = k.val; omega

/-- The tile's distances are the clouds' distances at the tile's rows. -/
theorem tile_eq (c : Dev nD) (n : Fin 8) (i : ℕ) (hi : i < 16) (p : Fin 256) (q : Fin 4096) :
    k0_pay7 (F := Ideal) (Reg0.iblk V c 0 ⟨16 * n.val + i, posLt n i hi⟩) (Reg0.iblk V c 1 ⟨16 * n.val + i, posLt n i hi⟩) (ix3 (0 : Fin 1) p q)
      = dN (xA V c) (yA V c) n (256 * i + p.val) q := by
  rw [tile_apply, dN_of_lt _ _ _ _ (by have := p.isLt; omega)]
  unfold KVal.dist d
  simp only [xblk_apply V c n i hi, yblk_apply V c n i hi]

/-- The sum over a tile's rows of the row's minimum over the other cloud. -/
def rowSum (x y : S8x4096x3.Idx → EReal) (n : Fin 8) (j : ℕ) : EReal :=
  ∑ p : Fin 256, (Finset.univ : Finset (Fin 4096)).fold min ⊤ (fun q => dN x y n (256 * j + p.val) q)
/-- The minimum over a tile's rows, at column q. -/
def colMin (x y : S8x4096x3.Idx → EReal) (n : Fin 8) (j : ℕ) (q : Fin 4096) : EReal :=
  (Finset.univ : Finset (Fin 256)).fold min ⊤ (fun p => dN x y n (256 * j + p.val) q)
/-- The running column minimum after tiles 0..i. -/
def runM (x y : S8x4096x3.Idx → EReal) (n : Fin 8) : ℕ → Fin 4096 → EReal
  | 0, q => min ⊤ (colMin x y n 0 q)
  | i + 1, q => min (runM x y n i q) (colMin x y n (i + 1) q)

theorem stepAt_fst (c : Dev nD) (k : ℕ) (hk : k < cfg0.N) (p : Reg0.St Ideal) (h0 : k % 16 ≠ 0) :
    (Reg0.stepAt V c k hk p).1 = accX (Reg0.iblk V c 0 ⟨k, hk⟩) (Reg0.iblk V c 1 ⟨k, hk⟩) p.1 := by
  unfold Reg0.stepAt; rw [if_neg h0]; split <;> rfl
theorem stepAt_scr (c : Dev nD) (k : ℕ) (hk : k < cfg0.N) (p : Reg0.St Ideal) (h0 : k % 16 ≠ 0) :
    (Reg0.stepAt V c k hk p).2.2 = runMin (Reg0.iblk V c 0 ⟨k, hk⟩) (Reg0.iblk V c 1 ⟨k, hk⟩) p.2.2 := by
  unfold Reg0.stepAt; rw [if_neg h0]; split <;> rfl
theorem stepAt_snd_mid (c : Dev nD) (k : ℕ) (hk : k < cfg0.N) (p : Reg0.St Ideal) (h0 : k % 16 ≠ 0) (h15 : k % 16 ≠ 15) :
    (Reg0.stepAt V c k hk p).2.1 = p.2.1 := by
  unfold Reg0.stepAt; rw [if_neg h0, if_neg h15]
theorem stepAt_snd_last (c : Dev nD) (k : ℕ) (hk : k < cfg0.N) (p : Reg0.St Ideal) (h0 : k % 16 ≠ 0) (h15 : k % 16 = 15) :
    (Reg0.stepAt V c k hk p).2.1 = k0_pay3 (runMin (Reg0.iblk V c 0 ⟨k, hk⟩) (Reg0.iblk V c 1 ⟨k, hk⟩) p.2.2) p.2.1 := by
  unfold Reg0.stepAt; rw [if_neg h0, if_pos h15]

/-- After tile i of cloud n the first accumulator holds the sum of the row-minimum sums of tiles 0..i. -/
theorem accX_at (c : Dev nD) (n : Fin 8) (l : Fin 128) : ∀ (i : ℕ) (hi : i < 16),
    (Reg0.accAt V c (16 * n.val + i) (posLt n i hi)).1 (ix3 (0 : Fin 1) (0 : Fin 1) l)
      = ∑ j ∈ Finset.range (i + 1), rowSum (xA V c) (yA V c) n j
  | 0, hi => by
    rw [Reg0.accAt_first V c _ _ (by show (16 * n.val + 0) % 16 = 0; omega)]
    show k0_pay1 (F := Ideal) (k0_pay7 _ _) (k0_pay5 (F := Ideal)) (ix3 (0 : Fin 1) (0 : Fin 1) l) = _
    rw [accX_apply, resetX_apply, zero_add, Finset.sum_range_one]
    unfold rowSum
    simp only [tile_eq V c n 0 hi]
  | i + 1, hi => by
    have hne : 16 * n.val + (i + 1) ≠ 0 := by omega
    have h0 : (16 * n.val + (i + 1)) % 16 ≠ 0 := by omega
    rw [Reg0.accAt_pos V c _ _ hne, stepAt_fst V c _ _ _ h0]
    show k0_pay1 (F := Ideal) (k0_pay7 _ _) _ (ix3 (0 : Fin 1) (0 : Fin 1) l) = _
    rw [accX_apply, Finset.sum_range_succ _ (i + 1)]
    refine congrArg₂ (· + ·) ?_ ?_
    · exact (congrArg (fun s : Reg0.St Ideal => s.1 (ix3 (0 : Fin 1) (0 : Fin 1) l))
        (Arr.accAt_congr V c _ (posLt n i (by omega)) (by omega))).trans (accX_at c n l i (by omega))
    · unfold rowSum
      simp only [tile_eq V c n (i + 1) hi]

/-- After tile i of cloud n the scratch holds the running column minimum over tiles 0..i. -/
theorem scr_at (c : Dev nD) (n : Fin 8) (q : Fin 4096) : ∀ (i : ℕ) (hi : i < 16),
    (Reg0.accAt V c (16 * n.val + i) (posLt n i hi)).2.2 (ix2 (0 : Fin 1) q) = runM (xA V c) (yA V c) n i q
  | 0, hi => by
    rw [Reg0.accAt_first V c _ _ (by show (16 * n.val + 0) % 16 = 0; omega)]
    show k0_pay2 (F := Ideal) (k0_pay7 _ _) (k0_pay4 (F := Ideal)) (ix2 (0 : Fin 1) q) = _
    rw [runMin_apply, resetMin_apply]
    unfold runM colMin
    simp only [tile_eq V c n 0 hi]
  | i + 1, hi => by
    have hne : 16 * n.val + (i + 1) ≠ 0 := by omega
    have h0 : (16 * n.val + (i + 1)) % 16 ≠ 0 := by omega
    rw [Reg0.accAt_pos V c _ _ hne, stepAt_scr V c _ _ _ h0]
    show k0_pay2 (F := Ideal) (k0_pay7 _ _) _ (ix2 (0 : Fin 1) q) = _
    rw [runMin_apply]
    unfold runM
    refine congrArg₂ min ?_ ?_
    · exact (congrArg (fun s : Reg0.St Ideal => s.2.2 (ix2 (0 : Fin 1) q))
        (Arr.accAt_congr V c _ (posLt n i (by omega)) (by omega))).trans (scr_at c n q i (by omega))
    · unfold colMin
      simp only [tile_eq V c n (i + 1) hi]

/-- Before a cloud's last tile the second accumulator holds the zero its first tile stored. -/
theorem accY_before (c : Dev nD) (n : Fin 8) (l : Fin 128) : ∀ (i : ℕ) (hi : i < 15),
    (Reg0.accAt V c (16 * n.val + i) (posLt n i (by omega))).2.1 (ix3 (0 : Fin 1) (0 : Fin 1) l) = 0
  | 0, hi => by
    rw [Reg0.accAt_first V c _ _ (by show (16 * n.val + 0) % 16 = 0; omega)]
    show k0_pay6 (F := Ideal) (ix3 (0 : Fin 1) (0 : Fin 1) l) = 0
    exact resetY_apply (ix3 (0 : Fin 1) (0 : Fin 1) l)
  | i + 1, hi => by
    have hne : 16 * n.val + (i + 1) ≠ 0 := by omega
    rw [Reg0.accAt_pos V c _ _ hne, stepAt_snd_mid V c _ _ _ (by omega) (by omega)]
    exact (congrArg (fun s : Reg0.St Ideal => s.2.1 (ix3 (0 : Fin 1) (0 : Fin 1) l))
      (Arr.accAt_congr V c _ (posLt n i (by omega)) (by omega))).trans (accY_before c n l i (by omega))

/-- After a cloud's last tile the second accumulator holds the sum of the running minimum. -/
theorem accY_last (c : Dev nD) (n : Fin 8) (l : Fin 128) :
    (Reg0.accAt V c (16 * n.val + 15) (posLt n 15 (by omega))).2.1 (ix3 (0 : Fin 1) (0 : Fin 1) l)
      = ∑ q : Fin 4096, runM (xA V c) (yA V c) n 15 q := by
  have hne : 16 * n.val + 15 ≠ 0 := by omega
  rw [Reg0.accAt_pos V c _ _ hne, stepAt_snd_last V c _ _ _ (by omega) (by omega)]
  rw [accY_apply]
  have hprev : (Reg0.accAt V c (16 * n.val + 15 - 1) (Nat.lt_of_le_of_lt (Nat.sub_le _ _) (posLt n 15 (by omega)))).2.1 (ix3 (0 : Fin 1) (0 : Fin 1) l) = 0 :=
    (congrArg (fun s : Reg0.St Ideal => s.2.1 (ix3 (0 : Fin 1) (0 : Fin 1) l))
      (Arr.accAt_congr V c _ (posLt n 14 (by omega)) (by omega))).trans (accY_before V c n l 14 (by omega))
  rw [hprev, zero_add]
  refine Finset.sum_congr rfl fun q _ => ?_
  have h := scr_at V c n q 15 (by omega)
  rw [Reg0.accAt_pos V c _ _ hne, stepAt_scr V c _ _ _ (by omega)] at h
  exact h

/-! ## Over a whole cloud -/

/-- The tiles' row-minimum sums add up to the cloud's. -/
theorem rowSum_total (x y : S8x4096x3.Idx → EReal) (n : Fin 8) :
    ∑ j ∈ Finset.range 16, rowSum x y n j = ∑ P : Fin 4096, (Finset.univ : Finset (Fin 4096)).fold min ⊤ (fun q => d x y n P q) := by
  unfold rowSum
  rw [Cert.LibSumBlocks.sum_blocks_fin (fun P => (Finset.univ : Finset (Fin 4096)).fold min ⊤ (fun q => dN x y n P q)) 256 16]
  refine Finset.sum_congr rfl fun P _ => ?_
  simp only [dN_of_lt x y n P.val P.isLt]

/-- A lower bound of the running minimum bounds every entry of the tiles seen, and conversely. -/
theorem le_runM (x y : S8x4096x3.Idx → EReal) (n : Fin 8) (q : Fin 4096) (z : EReal) : ∀ i : ℕ,
    z ≤ runM x y n i q ↔ ∀ j ≤ i, ∀ p : Fin 256, z ≤ dN x y n (256 * j + p.val) q
  | 0 => by
    unfold runM colMin
    rw [le_min_iff, le_fold_min_top]
    constructor
    · rintro ⟨-, h⟩ j hj p; obtain rfl : j = 0 := by omega
      exact h p (Finset.mem_univ p)
    · intro h; exact ⟨le_top, fun p _ => h 0 le_rfl p⟩
  | i + 1 => by
    unfold runM colMin
    rw [le_min_iff, le_fold_min_top, le_runM x y n q z i]
    constructor
    · rintro ⟨h1, h2⟩ j hj p
      by_cases hji : j ≤ i
      · exact h1 j hji p
      · obtain rfl : j = i + 1 := by omega
        exact h2 p (Finset.mem_univ p)
    · intro h; exact ⟨fun j hj p => h j (by omega) p, fun p _ => h (i + 1) le_rfl p⟩

/-- The running minimum over all sixteen tiles is the minimum over the cloud. -/
theorem runM_total (x y : S8x4096x3.Idx → EReal) (n : Fin 8) (q : Fin 4096) :
    runM x y n 15 q = (Finset.univ : Finset (Fin 4096)).fold min ⊤ (fun P => d x y n P q) := by
  refine eq_of_forall_le_iff fun z => ?_
  rw [le_runM, le_fold_min_top]
  constructor
  · intro h P _
    have hP := P.isLt
    have := h (P.val / 256) (by omega) ⟨P.val % 256, Nat.mod_lt _ (by omega)⟩
    rw [show 256 * (P.val / 256) + (⟨P.val % 256, Nat.mod_lt _ (by omega)⟩ : Fin 256).val = P.val from Nat.div_add_mod P.val 256,
      dN_of_lt x y n P.val P.isLt] at this
    exact this
  · intro h j hj p
    have hp := p.isLt
    rw [dN_of_lt x y n _ (by omega)]
    exact h _ (Finset.mem_univ _)

/-! ## The accumulator arrays after the region -/

/-- Cloud n's entry of the first accumulator array: the sum over the first cloud's points of the squared distance to
    the nearest point of the second. -/
theorem GX_apply (c : Dev nD) (n : Fin 8) :
    Arr.GX V c (ix3 n (0 : Fin 1) (0 : Fin 128))
      = ∑ P : Fin 4096, (Finset.univ : Finset (Fin 4096)).fold min ⊤ (fun q => d (xA V c) (yA V c) n P q) := by
  unfold Arr.GX
  exact (accX_at V c n (0 : Fin 128) 15 (by omega)).trans (rowSum_total _ _ n)

/-- Cloud n's entry of the second accumulator array: the sum over the second cloud's points of the squared distance
    to the nearest point of the first. -/
theorem GY_apply (c : Dev nD) (n : Fin 8) :
    Arr.GY V c (ix3 n (0 : Fin 1) (0 : Fin 128))
      = ∑ q : Fin 4096, (Finset.univ : Finset (Fin 4096)).fold min ⊤ (fun P => d (xA V c) (yA V c) n P q) := by
  unfold Arr.GY
  refine (accY_last V c n (0 : Fin 128)).trans ?_
  exact Finset.sum_congr rfl fun q _ => runM_total _ _ n q

end Cert.KernelIdeal.KSum

end
-- ==== Proof.K1Math.lean ====
/-
  The bit-rate kernel's arithmetic on the extended reals: the accumulator after a point is what it held plus the
  sum over the slab's 256 rows and 1024 columns of the logarithm of the entry; the reset value is zero.
-/
import proofs.«154242_j11184094838809_2_alg».proof.Proof.Gen.KernelIdeal.Skeleton
import proofs.«154242_j11184094838809_2_alg».proof.Proof.LibLane
import proofs.«154242_j11184094838809_2_alg».proof.Proof.LibColumn
import proofs.«154242_j11184094838809_2_alg».proof.Proof.LibIndexRead
import Idealize.ShloMosaic.Lib.ValueIdx
import Idealize.ShloMosaic.Lib.Pipeline.Value
import Idealize.ShloMosaic.PureOps.Ideal.Laws

set_option maxRecDepth 16384

noncomputable section

namespace Cert.KernelIdeal.KVal1

open Cert.KernelIdeal Cert.KernelIdeal.Gen Idealize.ShloMosaic Idealize.ShloMosaic.ValueIdx
open Idealize.ShloMosaic.RowRead

theorem acc_apply (x : Vec Ideal S1x256x1024 .f32) (a : Vec Ideal S1x1 .f32) :
    k1_pay2 (F := Ideal) x a (ix2 (0 : Fin 1) (0 : Fin 1))
      = a (ix2 (0 : Fin 1) (0 : Fin 1)) + ∑ r : Fin 256, ∑ c : Fin 1024, Ideal.log (x (ix3 (0 : Fin 1) r c)) := by
  unfold k1_pay2
  simp only [addf_apply, shapeCast_self, shapeCast_a_a1_apply]
  refine congrArg (a (ix2 (0 : Fin 1) (0 : Fin 1)) + ·) ?_
  refine (Cert.LibColumn.columnSum_apply _ _ _ _ (0 : Fin 1)).trans ?_
  refine Finset.sum_congr rfl fun r _ => ?_
  refine (shapeCast_a_a1_apply _ _ r (0 : Fin 1)).trans ?_
  refine (Cert.LibLane.laneSum_apply _ _ _ _ r).trans ?_
  refine Finset.sum_congr rfl fun c _ => ?_
  exact congrArg Ideal.log (ValueIdx.shapeCast_1ab_ab_apply (α := Elt Ideal .f32) x _ r c)

theorem reset_apply (i : S1x1.Idx) : k1_pay1 (F := Ideal) i = 0 := by
  unfold k1_pay1; simp only [broadcast_apply]; exact Ideal.ofBits_zero_f32

end Cert.KernelIdeal.KVal1

end
-- ==== Proof.K1Sum.lean ====
/-
  The bit-rate accumulator as a sum over the whole array: after the last point it holds the sum over the eight slabs
  of the slab's sum of logarithms.
-/
import proofs.«154242_j11184094838809_2_alg».proof.Proof.ArrVal
import proofs.«154242_j11184094838809_2_alg».proof.Proof.K1Math

set_option maxRecDepth 16384

noncomputable section

namespace Cert.KernelIdeal.K1Sum

open Idealize.ShloMosaic Idealize.ShloMosaic.TcCoe Idealize.ShloMosaic.ValueIdx
open Idealize.SL Idealize.SL.Sem
open Idealize.ShloMosaic.Pipeline (Dat Cfg Window)

open Cert.KernelIdeal Cert.KernelIdeal.Gen Cert.KernelIdeal.KVal1

variable (V : (c : Dev nD) → (b : Ref sig .tc) → Buf (Elt Ideal) ((c : Thread nD τ).loc b))

abbrev lA (c : Dev nD) : S8x256x1024.Idx → EReal := V c main_arg4

/-- The sum of the logarithms of slab j (zero past the last slab, where nothing reads it). -/
def slab (x : S8x256x1024.Idx → EReal) (j : ℕ) : EReal :=
  if h : j < 8 then ∑ r : Fin 256, ∑ c : Fin 1024, Ideal.log (x (ix3 (⟨j, h⟩ : Fin 8) r c)) else 0

theorem posLt1 (k : ℕ) (hk : k < 8) : k < cfg1.N := by have hN : cfg1.N = 8 := N_1; omega

theorem idxL : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)

/-- Point k's block is slab k. -/
theorem lblk_apply (c : Dev nD) (k : ℕ) (hk : k < 8) (r : Fin 256) (cc : Fin 1024) :
    Reg1.iblk V c 0 ⟨k, posLt1 k hk⟩ (ix3 (0 : Fin 1) r cc) = lA V c (ix3 (⟨k, hk⟩ : Fin 8) r cc) := by
  unfold Reg1.iblk
  show V c main_arg4 (((cfg1.win 0).blk ⟨k, posLt1 k hk⟩).view.emb (ix3 (0 : Fin 1) r cc)) = _
  refine congrArg (V c main_arg4) (funext fun a => Fin.ext ?_)
  obtain ⟨e0, e1, e2⟩ := idxL ⟨k, posLt1 k hk⟩
  have e0' : win1_0.index ⟨k, posLt1 k hk⟩ (0 : Fin 3) = k := e0
  match a with
  | ⟨0, _⟩ => show win1_0.index _ (0 : Fin 3) * 1 + 1 * 0 = k; omega
  | ⟨1, _⟩ => show win1_0.index _ (1 : Fin 3) * 256 + 1 * r.val = r.val; omega
  | ⟨2, _⟩ => show win1_0.index _ (2 : Fin 3) * 1024 + 1 * cc.val = cc.val; omega

theorem slabSum (c : Dev nD) (k : ℕ) (hk : k < 8) :
    (∑ r : Fin 256, ∑ cc : Fin 1024, Ideal.log (Reg1.iblk V c 0 ⟨k, posLt1 k hk⟩ (ix3 (0 : Fin 1) r cc))) = slab (lA V c) k := by
  unfold slab; rw [dif_pos hk]
  simp only [lblk_apply V c k hk]

/-- After point k the accumulator holds the sum of slabs 0..k. -/
theorem acc_at (c : Dev nD) : ∀ (k : ℕ) (hk : k < 8),
    Reg1.accAt V c k (posLt1 k hk) (ix2 (0 : Fin 1) (0 : Fin 1)) = ∑ j ∈ Finset.range (k + 1), slab (lA V c) j
  | 0, hk => by
    show k1_pay2 (F := Ideal) _ (k1_pay1 (F := Ideal)) (ix2 (0 : Fin 1) (0 : Fin 1)) = _
    rw [acc_apply, reset_apply, zero_add, Finset.sum_range_one]
    exact slabSum V c 0 hk
  | k + 1, hk => by
    show k1_pay2 (F := Ideal) _ (Reg1.accAt V c k _) (ix2 (0 : Fin 1) (0 : Fin 1)) = _
    rw [acc_apply, Finset.sum_range_succ _ (k + 1)]
    exact congrArg₂ (· + ·) (acc_at c k (by omega)) (slabSum V c (k + 1) hk)

/-- The bit-rate array after its region: the sum of the logarithms of the whole fifth argument. -/
theorem final_apply (c : Dev nD) :
    Reg1.accAt V c 7 Arr.lastPos1 (ix2 (0 : Fin 1) (0 : Fin 1))
      = ∑ n : Fin 8, ∑ r : Fin 256, ∑ cc : Fin 1024, Ideal.log (lA V c (ix3 n r cc)) := by
  refine (acc_at V c 7 (by omega)).trans ?_
  rw [← Fin.sum_univ_eq_sum_range (fun j => slab (lA V c) j) 8]
  refine Finset.sum_congr rfl fun n _ => ?_
  unfold slab; rw [dif_pos n.isLt]

end Cert.KernelIdeal.K1Sum

end
-- ==== Proof.LibSumIdx3.lean ====
/-
  A sum over every index of a rank-three array is the triple sum over its coordinates.
-/
import Idealize.ShloMosaic.Lib.ValueIdx

namespace Idealize.ShloMosaic.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.SumIdx3
-- ==== Proof.RefMath.lean ====
/-
  The reference's stages on the extended reals, in the form the kernel's accumulators take.

  The reference forms the whole 8 x 4096 x 4096 array of squared distances (the inner product by a dot_general over
  the three coordinates), reduces it by a minimum along either axis and sums; and it sums the logarithm of every
  entry of its fifth argument. A sum of three terms is the three terms added left to right, and adding the zero
  initial value changes nothing: these are the kernel's expressions.
-/
import proofs.«154242_j11184094838809_2_alg».proof.Proof.KSum
import proofs.«154242_j11184094838809_2_alg».proof.Proof.Gen.ReferenceIdeal.Read
import proofs.«154242_j11184094838809_2_alg».proof.Proof.LibSumIdx3

set_option maxRecDepth 16384

noncomputable section

namespace Cert.RefMath

open Idealize.ShloMosaic Idealize.ShloMosaic.TcCoe Idealize.ShloMosaic.ValueIdx
open Idealize.SL Idealize.SL.Sem
open Idealize.ShloMosaic.Pipeline (Dat Cfg Window)

open Cert.ReferenceIdeal Cert.ReferenceIdeal.Gen Cert.ReferenceIdeal.Read Idealize.ShloMosaic.MinReduce
open Cert.KernelIdeal.KSum (d)

variable (x y : S8x4096x3.Idx → EReal)

theorem e4 (n : Fin 8) (P q : Fin 4096) (k : Fin 3) : idx_main_v4 (idx_main_v8 (idx_main_v10 (ix3 n P q))) k = ix3 n P k :=
  funext fun a => by match a with | ⟨0, _⟩ => rfl | ⟨1, _⟩ => rfl | ⟨2, _⟩ => rfl
theorem e6 (n : Fin 8) (P q : Fin 4096) (k : Fin 3) : idx_main_v6 (idx_main_v9 (idx_main_v11 (ix3 n P q))) k = ix3 n q k :=
  funext fun a => by match a with | ⟨0, _⟩ => rfl | ⟨1, _⟩ => rfl | ⟨2, _⟩ => rfl
theorem eL (n : Fin 8) (P q : Fin 4096) (k : Fin 3) : lidx_main_v7 (ix3 n P q) k = ix3 n P k :=
  funext fun a => by match a with | ⟨0, _⟩ => rfl | ⟨1, _⟩ => rfl | ⟨2, _⟩ => rfl
theorem eR (n : Fin 8) (P q : Fin 4096) (k : Fin 3) : ridx_main_v7 (ix3 n P q) k = ix3 n q k :=
  funext fun a => by match a with | ⟨0, _⟩ => rfl | ⟨1, _⟩ => rfl | ⟨2, _⟩ => rfl

/-- The reference's array of squared distances at (n, P, q). -/
theorem dist_apply (n : Fin 8) (P q : Fin 4096) : val_main_v15 (F := Ideal) x y (ix3 n P q) = d x y n P q := by
  rw [val_main_v15_apply, val_main_v12_apply, val_main_v14_apply, val_main_v10_apply, val_main_v11_apply, val_main_v8_apply,
    val_main_v9_apply, val_main_v4_apply, val_main_v6_apply, val_main_v13_apply, val_main_v7_apply]
  simp only [e4, e6, eL, eR, val_main_cst_1_apply, val_main_cst_2_apply, val_main_cst_3_apply, val_main_v3_apply, val_main_v5_apply,
    Ideal.subf_def, Ideal.addf_def, Ideal.mulf_def, Ideal.ofBits_def, Ideal.ofBits_zero_f32, zero_add, d, Fin.sum_univ_three]

theorem inf4 : val_main_cst_4 (F := Ideal) (Shape.Idx.first h_S_) = ⊤ := posInf_f32
theorem inf7 : val_main_cst_7 (F := Ideal) (Shape.Idx.first h_S_) = ⊤ := posInf_f32

/-- The minimum over the second cloud, at (n, P). -/
theorem minQ_apply (n : Fin 8) (P : Fin 4096) :
    val_main_v16 (F := Ideal) x y (ix2 n P) = (Finset.univ : Finset (Fin 4096)).fold min ⊤ (fun q => d x y n P q) := by
  unfold val_main_v16
  refine (hostMin_last3_apply (val_main_v15 (F := Ideal) x y) (val_main_cst_4 (F := Ideal)) _ (by decide) h_S_ inf4 n P).trans ?_
  simp only [dist_apply]

/-- The minimum over the first cloud, at (n, q). -/
theorem minP_apply (n : Fin 8) (q : Fin 4096) :
    val_main_v20 (F := Ideal) x y (ix2 n q) = (Finset.univ : Finset (Fin 4096)).fold min ⊤ (fun P => d x y n P q) := by
  unfold val_main_v20
  refine (hostMin_mid3_apply (val_main_v15 (F := Ideal) x y) (val_main_cst_7 (F := Ideal)) _ (by decide) h_S_ inf7 n q).trans ?_
  simp only [dist_apply]

theorem e17 (n : Fin 8) (k : Fin 4096) : idx_main_v17 (ix1 n) k = ix2 n k :=
  funext fun a => by match a with | ⟨0, _⟩ => rfl | ⟨1, _⟩ => rfl
theorem e21 (n : Fin 8) (k : Fin 4096) : idx_main_v21 (ix1 n) k = ix2 n k :=
  funext fun a => by match a with | ⟨0, _⟩ => rfl | ⟨1, _⟩ => rfl

/-- The reference's sum over the first cloud of the distance to the nearest point of the second. -/
theorem sumX_apply (n : Fin 8) :
    val_main_v17 (F := Ideal) x y (ix1 n) = ∑ P : Fin 4096, (Finset.univ : Finset (Fin 4096)).fold min ⊤ (fun q => d x y n P q) := by
  rw [val_main_v17_apply]
  simp only [e17, minQ_apply, val_main_cst_5_apply, Ideal.ofBits_def, Ideal.ofBits_zero_f32, zero_add]

/-- The reference's sum over the second cloud of the distance to the nearest point of the first. -/
theorem sumY_apply (n : Fin 8) :
    val_main_v21 (F := Ideal) x y (ix1 n) = ∑ q : Fin 4096, (Finset.univ : Finset (Fin 4096)).fold min ⊤ (fun P => d x y n P q) := by
  rw [val_main_v21_apply]
  simp only [e21, minP_apply, val_main_cst_8_apply, Ideal.ofBits_def, Ideal.ofBits_zero_f32, zero_add]

/-- The reference's sum of the logarithms of every entry of its fifth argument. -/
theorem sumLog_apply (x4 : S8x256x1024.Idx → EReal) (i : S_.Idx) :
    val_main_v1 (F := Ideal) x4 i = ∑ n : Fin 8, ∑ r : Fin 256, ∑ c : Fin 1024, Ideal.log (x4 (ix3 n r c)) := by
  rw [val_main_v1_apply, Idealize.ShloMosaic.SumIdx3.sum_idx3]
  simp only [val_main_cst_apply, val_main_v0_apply, Ideal.ofBits_def, Ideal.ofBits_zero_f32, zero_add, Ideal.hostUnary_log_def]

end Cert.RefMath

end
-- ==== Proof.LibUnitTail.lean ====
/-
  Trailing unit axes dropped by a shape cast, read at an index: the [a, 1, 1] → [a] cast at p is the operand at
  (p, 0, 0) (what `y[:, 0, 0]` of an [a, 1, b] array lowers to after its slice), and the [1, 1] → [] cast is the
  operand's one entry.
-/
import Idealize.ShloMosaic.Lib.Pipeline.Value
import Idealize.ShloMosaic.Lib.ValueIdx

namespace Idealize.ShloMosaic.UnitTail

open Idealize.ShloMosaic Idealize.ShloMosaic.ValueIdx

variable {α : Type}

/-- An [a, 1, 1] array with its two trailing unit axes dropped reads, at p, the operand at (p, 0, 0). -/
theorem shapeCast_a11_a_apply {a : ℕ} (x : (⟨3, ![a, 1, 1]⟩ : Shape).Idx → α)
    (h : (⟨3, ![a, 1, 1]⟩ : Shape).ShapeCasts ⟨1, ![a]⟩) (p : Fin a) :
    shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- A [1, 1] array cast to a scalar reads its one entry. -/
theorem shapeCast_11_scalar_apply (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) :=
  shapeCast_apply x h _ _ (by
    rw [Shape.rowMajor_val_two]
    have h0 : ((⟨0, ![]⟩ : Shape).rowMajor i).val < 1 := ((⟨0, ![]⟩ : Shape).rowMajor i).isLt
    show 0 * 1 + 0 = _
    omega)

end Idealize.ShloMosaic.UnitTail
-- ==== Proof.Bridge.lean ====
/-
  The two programs' results as extended reals: the kernel's, read off the run's last boundary, are the reference's stages.
-/
import proofs.«154242_j11184094838809_2_alg».proof.Proof.Run
import proofs.«154242_j11184094838809_2_alg».proof.Proof.KSum
import proofs.«154242_j11184094838809_2_alg».proof.Proof.K1Sum
import proofs.«154242_j11184094838809_2_alg».proof.Proof.RefMath
import proofs.«154242_j11184094838809_2_alg».proof.Proof.LibUnitTail
import proofs.«154242_j11184094838809_2_alg».proof.Proof.LibChannelSlice
import Idealize.ShloMosaic.Lib.StableHlo.Run

set_option maxRecDepth 16384

noncomputable section

namespace Cert.Bridge

open Idealize.ShloMosaic Idealize.ShloMosaic.TcCoe Idealize.ShloMosaic.ValueIdx
open Idealize.SL Idealize.SL.Sem
open Idealize.ShloMosaic.Pipeline (Dat Cfg Window)

open Cert.KernelIdeal Cert.KernelIdeal.Gen Cert.KernelIdeal.Run Idealize.ShloMosaic.StableHlo
open Idealize.ShloMosaic.UnitTail Idealize.ShloMosaic.ChannelSlice

variable (m : (ℓ : Loc nD τ sig) → Buf (Elt Ideal) ℓ)

/-- The kernel's first accumulator array, sliced to its first lane and flattened, is the reference's per-cloud sums. -/
theorem KX (c : Dev nD) (h1 : S8x1x128.Slices ![0, 0, 0] S8x1x1) (h2 : S8x1x1.ShapeCasts S8) :
    shapeCast S8 (extractStridedSlice S8x1x1 ![0, 0, 0] (W1 m c (Proc.devRef .tc main_v0_0)) h1) h2
      = Cert.ReferenceIdeal.Read.val_main_v17 (F := Ideal) (m ((c : Thread nD τ).loc main_arg0)) (m ((c : Thread nD τ).loc main_arg1)) := by
  funext i
  obtain ⟨n, rfl⟩ : ∃ n : Fin 8, i = ix1 n := ⟨i 0, funext fun a => by match a with | ⟨0, _⟩ => rfl⟩
  rw [Cert.RefMath.sumX_apply]
  refine (shapeCast_a11_a_apply _ h2 n).trans ?_
  refine (slice_channel_apply (C := 128) 0 (by decide) _ h1 n (0 : Fin 1) (0 : Fin 1)).trans ?_
  have hW : W1 m c (Proc.devRef .tc main_v0_0) = Arr.GX (V0 m) c := (W1_arr m c 2).trans (Arr.finalX (V0 m) c)
  rw [hW]
  exact KSum.GX_apply (V0 m) c n

theorem KY (c : Dev nD) (h1 : S8x1x128.Slices ![0, 0, 0] S8x1x1) (h2 : S8x1x1.ShapeCasts S8) :
    shapeCast S8 (extractStridedSlice S8x1x1 ![0, 0, 0] (W1 m c (Proc.devRef .tc main_v0_1)) h1) h2
      = Cert.ReferenceIdeal.Read.val_main_v21 (F := Ideal) (m ((c : Thread nD τ).loc main_arg0)) (m ((c : Thread nD τ).loc main_arg1)) := by
  funext i
  obtain ⟨n, rfl⟩ : ∃ n : Fin 8, i = ix1 n := ⟨i 0, funext fun a => by match a with | ⟨0, _⟩ => rfl⟩
  rw [Cert.RefMath.sumY_apply]
  refine (shapeCast_a11_a_apply _ h2 n).trans ?_
  refine (slice_channel_apply (C := 128) 0 (by decide) _ h1 n (0 : Fin 1) (0 : Fin 1)).trans ?_
  have hW : W1 m c (Proc.devRef .tc main_v0_1) = Arr.GY (V0 m) c := (W1_arr m c 3).trans (Arr.finalY (V0 m) c)
  rw [hW]
  exact KSum.GY_apply (V0 m) c n

/-- The fifth argument reaches the bit-rate region as launched. -/
theorem W2_arg4 (c : Dev nD) : W2 m c (Proc.devRef .tc main_arg4) = m ((c : Thread nD τ).loc main_arg4) :=
  (StableHlo.after_of_writes_sub hostOps1 _ hostOps1_writes (by decide)).trans (W1_of_ne m c main_arg4 (by decide))

/-- The kernel's bit-rate array as a scalar is the reference's sum of logarithms. -/
theorem KB (c : Dev nD) (h : S1x1.ShapeCasts S_) :
    shapeCast S_ (W3 m c (Proc.devRef .tc main_v14)) h
      = Cert.ReferenceIdeal.Read.val_main_v1 (F := Ideal) (m ((c : Thread nD τ).loc main_arg4)) := by
  funext i
  rw [Cert.RefMath.sumLog_apply]
  refine (shapeCast_11_scalar_apply _ h i).trans ?_
  have hW : W3 m c (Proc.devRef .tc main_v14) = Reg1.accAt (V2 m) c 7 Arr.lastPos1 := (W3_arr m c 1).trans (Arr.finalB (V2 m) c)
  rw [hW]
  refine (K1Sum.final_apply (V2 m) c).trans ?_
  show (∑ n : Fin 8, ∑ r : Fin 256, ∑ cc : Fin 1024, Ideal.log (W2 m c (Proc.devRef .tc main_arg4) (ix3 n r cc))) = _
  rw [W2_arg4]

/-- The host lines that turn the two accumulator arrays into the reconstruction loss. -/
def recTail (u v : S8.Idx → Elt Ideal .f32) : S_.Idx → Elt Ideal .f32 :=
  addf (Host.divf (Host.reduceAdd (Host.divf u (broadcastInDim S8 ![] bcast_S_S8 (constant (F := Ideal) S_ .f32 0x45800000#32)))
      (constant (F := Ideal) S_ .f32 0x00000000#32) reducesTo_S8_S_d0 h_S_) (constant (F := Ideal) S_ .f32 0x41000000#32))
    (Host.divf (Host.reduceAdd (Host.divf v (broadcastInDim S8 ![] bcast_S_S8 (constant (F := Ideal) S_ .f32 0x45800000#32)))
      (constant (F := Ideal) S_ .f32 0x00000000#32) reducesTo_S8_S_d0 h_S_) (constant (F := Ideal) S_ .f32 0x41000000#32))

/-- The reconstruction loss after the host lines between the regions. -/
theorem rec_W2 (c : Dev nD) :
    W2 m c (Proc.devRef .tc main_v13)
      = Cert.ReferenceIdeal.Read.val_main_v28 (F := Ideal) (m ((c : Thread nD τ).loc main_arg0)) (m ((c : Thread nD τ).loc main_arg1)) := by
  show StableHlo.after hostOps1 (W1 m c) (Proc.devRef .tc main_v13) = _
  after_results
  refine (congrArg₂ recTail (KX m c slices_S8x1x128_S8x1x1_0_0_0 shapeCasts_S8x1x1_S8)
    (KY m c slices_S8x1x128_S8x1x1_0_0_0 shapeCasts_S8x1x1_S8)).trans ?_
  rfl

theorem rec_W3 (c : Dev nD) :
    W3 m c (Proc.devRef .tc main_v13)
      = Cert.ReferenceIdeal.Read.val_main_v28 (F := Ideal) (m ((c : Thread nD τ).loc main_arg0)) (m ((c : Thread nD τ).loc main_arg1)) :=
  (W3_of_ne m c main_v13 (by decide)).trans (rec_W2 m c)

/-- The second, third and fourth arguments reach the last host lines as launched. -/
theorem W3_arg2 (c : Dev nD) : W3 m c (Proc.devRef .tc main_arg2) = m ((c : Thread nD τ).loc main_arg2) :=
  (W3_of_ne m c main_arg2 (by decide)).trans <|
    (StableHlo.after_of_writes_sub hostOps1 _ hostOps1_writes (by decide)).trans (W1_of_ne m c main_arg2 (by decide))
theorem W3_arg3 (c : Dev nD) : W3 m c (Proc.devRef .tc main_arg3) = m ((c : Thread nD τ).loc main_arg3) :=
  (W3_of_ne m c main_arg3 (by decide)).trans <|
    (StableHlo.after_of_writes_sub hostOps1 _ hostOps1_writes (by decide)).trans (W1_of_ne m c main_arg3 (by decide))

/-- Lines run after lines are the lines appended. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => simp only [List.cons_append, after_cons, ih]

/-- The last boundary from the bit-rate region's exit, as one stretch of lines. -/
theorem W7_eq (c : Dev nD) :
    W7 m c = StableHlo.after (hostOps2 ++ (hostOps2_1 ++ (hostOps2_2 ++ hostOps2_3))) (W3 m c) := by
  rw [after_append, after_append, after_append]

end Cert.Bridge

end
-- ==== Proof.Tail.lean ====
/-
  The bit-rate loss, the classification loss and the total, read off the run's last boundary.

  The classification lines (log-softmax, the gather of the labelled entry, its mean, the negation) are the same
  operations in the two programs, applied to the same two arguments; the bit-rate loss is the bit-rate array divided
  by the same literal; the total is the same sum of the three losses.
-/
import proofs.«154242_j11184094838809_2_alg».proof.Proof.Bridge

set_option maxRecDepth 16384

noncomputable section

namespace Cert.Bridge

open Idealize.ShloMosaic Idealize.ShloMosaic.TcCoe Idealize.ShloMosaic.ValueIdx
open Idealize.SL Idealize.SL.Sem
open Idealize.ShloMosaic.Pipeline (Dat Cfg Window)

open Cert.KernelIdeal Cert.KernelIdeal.Gen Cert.KernelIdeal.Run Idealize.ShloMosaic.StableHlo

variable (m : (ℓ : Loc nD τ sig) → Buf (Elt Ideal) ℓ)

/-- The reconstruction loss at the last boundary. -/
theorem rec_eq (c : Dev nD) :
    W7 m c (Proc.devRef .tc main_v13)
      = Cert.ReferenceIdeal.Read.val_main_v28 (F := Ideal) (m ((c : Thread nD τ).loc main_arg0)) (m ((c : Thread nD τ).loc main_arg1)) :=
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans (rec_W3 m c)

/-- The bit-rate loss. -/
theorem bpp_eq (c : Dev nD) :
    W7 m c (Proc.devRef .tc main_v16)
      = Cert.ReferenceIdeal.Read.val_main_v2 (F := Ideal) (m ((c : Thread nD τ).loc main_arg4)) := by
  have e : W7 m c (Proc.devRef .tc main_v16) = W4 m c (Proc.devRef .tc main_v16) :=
    (StableHlo.after_of_writes_sub hostOps2_3 _ hostOps2_3_writes (by decide)).trans <|
    (StableHlo.after_of_writes_sub hostOps2_2 _ hostOps2_2_writes (by decide)).trans <|
    (StableHlo.after_of_writes_sub hostOps2_1 _ hostOps2_1_writes (by decide))
  rw [e]
  show StableHlo.after hostOps2 (W3 m c) (Proc.devRef .tc main_v16) = _
  after_results
  refine (congrArg (fun u => Host.divf u (constant (F := Ideal) S_ .f32 0xC6B17218#32)) (KB m c shapeCasts_S1x1_S_)).trans ?_
  rfl

/-- The classification loss. -/
theorem cls_eq (c : Dev nD) :
    W7 m c (Proc.devRef .tc main_v21)
      = Cert.ReferenceIdeal.Read.val_main_v33 (F := Ideal) (m ((c : Thread nD τ).loc main_arg2)) (m ((c : Thread nD τ).loc main_arg3)) := by
  rw [W7_eq]
  simp only [hostOps2, hostOps2_1, hostOps2_2, hostOps2_3, List.cons_append, List.nil_append]
  after_results_simp
  rw [W3_arg2, W3_arg3]
  rfl

/-- The total is the sum of the three losses, each times one. -/
theorem loss_split (c : Dev nD) :
    W7 m c (Proc.devRef .tc main_v26)
      = addf (addf (mulf (constant (F := Ideal) S_ .f32 0x3F800000#32) (W7 m c (Proc.devRef .tc main_v13)))
          (mulf (constant (F := Ideal) S_ .f32 0x3F800000#32) (W7 m c (Proc.devRef .tc main_v21))))
        (mulf (constant (F := Ideal) S_ .f32 0x3F800000#32) (W7 m c (Proc.devRef .tc main_v16))) := by
  show StableHlo.after hostOps2_3 (W6 m c) (Proc.devRef .tc main_v26)
      = (addf (addf (mulf (constant (F := Ideal) S_ .f32 0x3F800000#32) (StableHlo.after hostOps2_3 (W6 m c) (Proc.devRef .tc main_v13) : FVec Ideal S_ .f32))
          (mulf (constant (F := Ideal) S_ .f32 0x3F800000#32) (StableHlo.after hostOps2_3 (W6 m c) (Proc.devRef .tc main_v21) : FVec Ideal S_ .f32)))
        (mulf (constant (F := Ideal) S_ .f32 0x3F800000#32) (StableHlo.after hostOps2_3 (W6 m c) (Proc.devRef .tc main_v16) : FVec Ideal S_ .f32)) : FVec Ideal S_ .f32)
  after_results_simp

theorem loss_eq (c : Dev nD) :
    W7 m c (Proc.devRef .tc main_v26)
      = Cert.ReferenceIdeal.Read.val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [loss_split, rec_eq, cls_eq, bpp_eq]
  rfl

end Cert.Bridge

end
-- ==== Proof.lean ====
/-
  The five claims about the point-cloud rate-distortion loss: a Pallas kernel for the bidirectional chamfer distance
  (tiled over the first cloud, both directions fused in one pass, a running minimum kept in scratch) and one for the
  sum of log-likelihoods, with the rest in host lines, against a plain reference.

  On the extended reals the kernel's tile of squared distances is the reference's array of squared distances at the
  tile's rows: |x|^2 + |y|^2 - 2 x.y, the inner product over three coordinates spelt as three products added left to
  right against a sum over the coordinate. A sum over a cloud is the sum over its sixteen tiles of the tiles' sums,
  and a minimum over a cloud is the minimum over the tiles of the tiles' minima, taken from +inf; the two
  accumulators start at zero; so each cloud's two chamfer sums are the reference's. The sum of logarithms accumulated
  slab by slab is the reference's sum over the whole array. The host lines after the kernels (the means, the
  division by the same literal, the classification loss, the total) are the reference's own operations. Only the
  associativity and commutativity of sums and minima are used, which hold on all of the extended reals: the
  precondition is never opened.

  The frames: each program's run is followed from the launch through the chamfer region (per grid point one of three
  control cases: a cloud's first tile, which resets the accumulators and the scratch, its last, which adds the
  running minimum's sum, and those between), the host lines, the bit-rate region and the remaining host lines; at
  the end every buffer that is no kernel's own holds a named value, the argument arrays their launch contents.
-/
import proofs.«154242_j11184094838809_2_alg».proof.Defs
import proofs.«154242_j11184094838809_2_alg».proof.Proof.Gen.Kernel
import proofs.«154242_j11184094838809_2_alg».proof.Proof.Gen.KernelIdeal
import proofs.«154242_j11184094838809_2_alg».proof.Proof.Gen.ReferenceIdeal
import proofs.«154242_j11184094838809_2_alg».proof.Proof.Gen.ReferenceIdeal.Run
import proofs.«154242_j11184094838809_2_alg».proof.Proof.Gen.Pre_finite_inputs
import proofs.«154242_j11184094838809_2_alg».proof.Proof.Args
import proofs.«154242_j11184094838809_2_alg».proof.Proof.WordArgs
import proofs.«154242_j11184094838809_2_alg».proof.Proof.Tail

noncomputable section

namespace Cert.Proof

open Idealize.ShloMosaic Idealize.ShloMosaic.TcCoe Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

open Cert.KernelIdeal Cert.KernelIdeal.Run in
/-- Both idealized programs run, and their four results agree: the kernel's, read off its run's last boundary, are
    the reference's stages of arguments that agree. -/
theorem algebraic : Cert.algebraic_KernelIdeal_ReferenceIdeal := by
  intro m ρ m' ρ' _ hagree
  refine ⟨fun c => W7 m c (Proc.devRef .tc main_v26), fun c => W7 m c (Proc.devRef .tc main_v13),
    fun c => W7 m c (Proc.devRef .tc main_v21), fun c => W7 m c (Proc.devRef .tc main_v16), ?_, ?_⟩
  · exact (θ_run Cert.KernelIdeal.defs _ _).mono (fun r h c =>
      ⟨h c _ (mem_uc main_v26 (by decide)), h c _ (mem_uc main_v13 (by decide)), h c _ (mem_uc main_v21 (by decide)),
        h c _ (mem_uc main_v16 (by decide)),
        (h c _ (mem_uc main_arg0 (by decide))).trans (W7_arg0 m c),
        (h c _ (mem_uc main_arg1 (by decide))).trans (W7_arg1 m c),
        (h c _ (mem_uc main_arg2 (by decide))).trans (W7_arg2 m c),
        (h c _ (mem_uc main_arg3 (by decide))).trans (W7_arg3 m c),
        (h c _ (mem_uc main_arg4 (by decide))).trans (W7_arg4 m c)⟩) (run_all (F := Ideal) m ρ)
  · refine (θ_run Cert.ReferenceIdeal.defs _ _).mono (fun r h c => ?_) (Cert.ReferenceIdeal.Value.run (F := Ideal) m' ρ')
    obtain ⟨h0, h1, h2, h3, ha⟩ := h c
    obtain ⟨g0, g1, g2, g3, g4⟩ := hagree c
    refine ⟨?_, ?_, ?_, ?_, ha⟩
    · rw [h0, Cert.ReferenceIdeal.Read.val_main_v38_eq, g0, g1, g2, g3, g4]
      exact (Cert.Bridge.loss_eq m c).symm
    · rw [h1, Cert.ReferenceIdeal.Read.val_main_v28_eq, g0, g1]
      exact (Cert.Bridge.rec_eq m c).symm
    · rw [h2, Cert.ReferenceIdeal.Read.val_main_v33_eq, g2, g3]
      exact (Cert.Bridge.cls_eq m c).symm
    · rw [h3, Cert.ReferenceIdeal.Read.val_main_v2_eq, g4]
      exact (Cert.Bridge.bpp_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
